-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x256 : Shape := ⟨3, ![64, 8192, 256]⟩
abbrev S64x8192 : Shape := ⟨2, ![64, 8192]⟩
abbrev S256x256 : Shape := ⟨2, ![256, 256]⟩
abbrev S256 : Shape := ⟨1, ![256]⟩
abbrev S_ : Shape := ⟨0, ![]⟩
abbrev S64 : Shape := ⟨1, ![64]⟩

class Facts : Prop where
  bcast_S_S64x8192x256 : S_.BroadcastsInDim S64x8192x256 (![] : Fin 0 → Fin S64x8192x256.rank)
  reducesTo_S64x8192x256_S_d0_1_2 : S64x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S64x8192_S64_d1 : S64x8192.ReducesTo [1] S64
  reducesTo_S64_S_d0 : S64.ReducesTo [0] S_

variable [Facts]

def fn_part1 {F : FTy → Type} [FloatOps F] (main_arg1 : IVec S64x8192 1) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 1 := constantI S_ 1 0#1
  let main_v19 : IVec S64 1 := (fun x v => Host.reduce IntOp.ori x v reducesTo_S64x8192_S64_d1 h_S_) main_arg1 main_c_6
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v18 main_v20
  main_v21

def fn {F : FTy → Type} [FloatOps F] (main_arg0 : FVec F S64x8192x256 .f32) (main_arg1 : IVec S64x8192 1) (main_arg2 : FVec F S256x256 .f32) (main_arg3 : FVec F S256 .f32) (main_arg4 : FVec F S256 .f32) : IVec S_ 1 :=
  let main_v0 : FVec F S64x8192x256 .f32 := Host.absf main_arg0
  let main_cst : FVec F S_ .f32 := constant S_ .f32 0x7F800000#32
  let main_v1 : FVec F S64x8192x256 .f32 := broadcastInDim S64x8192x256 ![] bcast_S_S64x8192x256 main_cst
  let main_v2 : IVec S64x8192x256 1 := cmpf .olt main_v0 main_v1
  let main_c : IVec S_ 1 := constantI S_ 1 1#1
  let main_v3 : IVec S_ 1 := (fun x v => Host.reduce IntOp.andi x v reducesTo_S64x8192x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S64x8192x256 : Shape := ⟨3, ![64, 8192, 256]⟩
abbrev S64x8192 : Shape := ⟨2, ![64, 8192]⟩
abbrev S256x256 : Shape := ⟨2, ![256, 256]⟩
abbrev S256 : Shape := ⟨1, ![256]⟩
abbrev S64x8192x1 : Shape := ⟨3, ![64, 8192, 1]⟩
abbrev S1x256 : Shape := ⟨2, ![1, 256]⟩
abbrev S64x1x256 : Shape := ⟨3, ![64, 1, 256]⟩
abbrev S1x4096x256 : Shape := ⟨3, ![1, 4096, 256]⟩
abbrev S1x4096x1 : Shape := ⟨3, ![1, 4096, 1]⟩
abbrev S1x1x256 : Shape := ⟨3, ![1, 1, 256]⟩
abbrev S1x1 : Shape := ⟨2, ![1, 1]⟩
abbrev S4096x256 : Shape := ⟨2, ![4096, 256]⟩
abbrev S4096x1 : Shape := ⟨2, ![4096, 1]⟩
abbrev S4096 : Shape := ⟨1, ![4096]⟩
abbrev S1 : Shape := ⟨1, ![1]⟩
abbrev S_ : Shape := ⟨0, ![]⟩
abbrev S64 : Shape := ⟨1, ![64]⟩
abbrev S64x1 : Shape := ⟨2, ![64, 1]⟩
abbrev S64x256 : Shape := ⟨2, ![64, 256]⟩

abbrev nBuf : Space → Nat
  | .hbm => 18
  | .vmem => 12
  | .smem => 0
  | _ => 0

abbrev bufTy : (tb : Table) → Fin (tcTables nBuf tb) → BufTy
  | .hbm, ⟨0, _⟩ => ⟨S64x8192x256, .f32⟩
  | .hbm, ⟨1, _⟩ => ⟨S64x8192, .i1⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S64x8192, .f32⟩
  | .hbm, ⟨6, _⟩ => ⟨S64x8192x1, .f32⟩
  | .hbm, ⟨7, _⟩ => ⟨S1x256, .f32⟩
  | .hbm, ⟨8, _⟩ => ⟨S1x256, .f32⟩
  | .hbm, ⟨9, _⟩ => ⟨S64x8192x1, .f32⟩
  | .hbm, ⟨10, _⟩ => ⟨S64x1x256, .f32⟩
  | .hbm, ⟨11, _⟩ => ⟨S64x8192, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S64x8192, .f32⟩
  | .hbm, ⟨16, _⟩ => ⟨S64x8192, .f32⟩
  | .hbm, ⟨17, _⟩ => ⟨S64x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x1, .f32⟩
  | .local _ .vmem, ⟨3, _⟩ => ⟨S1x4096x1, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x4096x1, .f32⟩
  | .local _ .vmem, ⟨8, _⟩ => ⟨S1x4096x1, .f32⟩
  | .local _ .vmem, ⟨9, _⟩ => ⟨S1x1x256, .f32⟩
  | .local _ .vmem, ⟨10, _⟩ => ⟨S1x1x256, .f32⟩
  | .local _ .vmem, ⟨11, _⟩ => ⟨S1x1, .f32⟩
  | _, _ => ⟨S64x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S64x8192_S64x8192x1_0_1 : S64x8192.BroadcastsInDim S64x8192x1 (![0, 1] : Fin 2 → Fin S64x8192x1.rank)
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  shapeCasts_S4096x1_S1x4096x1 : S4096x1.ShapeCasts S1x4096x1
  reduces_S4096x1_S1 : S4096x1.Reduces [0] S1
  shapeCasts_S1_S1x1 : S1.ShapeCasts S1x1
  broadcasts_S4096x1_S4096x256 : S4096x1.Broadcasts S4096x256
  reduces_S4096x256_S256 : S4096x256.Reduces [0] S256
  broadcasts_S1x1_S1x256 : S1x1.Broadcasts S1x256
  shapeCasts_S64x8192x1_S64x8192 : S64x8192x1.ShapeCasts S64x8192
  reducesTo_S64x8192_S64_d1 : S64x8192.ReducesTo [1] S64
  h_S_ : 0 < S_.numel
  bcast_S64_S64x1_0 : S64.BroadcastsInDim S64x1 (![0] : Fin 1 → Fin S64x1.rank)
  bcast_S64x1_S64x8192_0_1 : S64x1.BroadcastsInDim S64x8192 (![0, 1] : Fin 2 → Fin S64x8192.rank)
  shapeCasts_S64x1x256_S64x256 : S64x1x256.ShapeCasts S64x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S64x8192x256.size a
  hwx0_0 : ∀ i : grid0.Coords, EltTy.bits .f32 = 32 ∨ (Rect.block (s := S64x8192x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S64x8192x1.size a
  hwx0_1 : ∀ i : grid0.Coords, EltTy.bits .f32 = 32 ∨ (Rect.block (s := S64x8192x1) S1x4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x1.size a ≤ S64x8192x1.size a
  hwx0_5 : ∀ i : grid0.Coords, EltTy.bits .f32 = 32 ∨ (Rect.block (s := S64x8192x1) S1x4096x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S64x1x256.size a
  hwx0_6 : ∀ i : grid0.Coords, EltTy.bits .f32 = 32 ∨ (Rect.block (s := S64x1x256) S1x1x256.size (cc0_transform_6 i) (hinb0_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x4096x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x8192x256 : Shape := ⟨3, ![64, 8192, 256]⟩
abbrev S64x8192 : Shape := ⟨2, ![64, 8192]⟩
abbrev S256x256 : Shape := ⟨2, ![256, 256]⟩
abbrev S256 : Shape := ⟨1, ![256]⟩
abbrev S64x8192x1 : Shape := ⟨3, ![64, 8192, 1]⟩
abbrev S1x1x256 : Shape := ⟨3, ![1, 1, 256]⟩
abbrev S_ : Shape := ⟨0, ![]⟩
abbrev S64 : Shape := ⟨1, ![64]⟩
abbrev S64x1 : Shape := ⟨2, ![64, 1]⟩
abbrev S64x256 : Shape := ⟨2, ![64, 256]⟩

abbrev nBuf : Space → Nat
  | .hbm => 36
  | .vmem => 0
  | .smem => 0
  | _ => 0

abbrev bufTy : (tb : Table) → Fin (tcTables nBuf tb) → BufTy
  | .hbm, ⟨0, _⟩ => ⟨S64x8192x256, .f32⟩
  | .hbm, ⟨1, _⟩ => ⟨S64x8192, .i1⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S64x8192, .f32⟩
  | .hbm, ⟨6, _⟩ => ⟨S64x8192x1, .f32⟩
  | .hbm, ⟨7, _⟩ => ⟨S64x8192x256, .f32⟩
  | .hbm, ⟨8, _⟩ => ⟨S64x8192x256, .f32⟩
  | .hbm, ⟨9, _⟩ => ⟨S64x8192x256, .f32⟩
  | .hbm, ⟨10, _⟩ => ⟨S1x1x256, .f32⟩
  | .hbm, ⟨11, _⟩ => ⟨S64x8192x256, .f32⟩
  | .hbm, ⟨12, _⟩ => ⟨S64x8192x256, .f32⟩
  | .hbm, ⟨13, _⟩ => ⟨S64x8192x256, .f32⟩
  | .hbm, ⟨14, _⟩ => ⟨S1x1x256, .f32⟩
  | .hbm, ⟨15, _⟩ => ⟨S64x8192x256, .f32⟩
  | .hbm, ⟨16, _⟩ => ⟨S64x8192x256, .f32⟩
  | .hbm, ⟨17, _⟩ => ⟨S64x8192x256, .f32⟩
  | .hbm, ⟨18, _⟩ => ⟨S64x8192x256, .f32⟩
  | .hbm, ⟨19, _⟩ => ⟨S_, .f32⟩
  | .hbm, ⟨20, _⟩ => ⟨S64x8192, .f32⟩
  | .hbm, ⟨21, _⟩ => ⟨S64x8192, .f32⟩
  | .hbm, ⟨22, _⟩ => ⟨S64x8192, .f32⟩
  | .hbm, ⟨23, _⟩ => ⟨S64x8192, .f32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S64x8192, .f32⟩
  | .hbm, ⟨28, _⟩ => ⟨S64x8192, .f32⟩
  | .hbm, ⟨29, _⟩ => ⟨S64x8192x1, .f32⟩
  | .hbm, ⟨30, _⟩ => ⟨S64x8192x256, .f32⟩
  | .hbm, ⟨31, _⟩ => ⟨S64x8192x256, .f32⟩
  | .hbm, ⟨32, _⟩ => ⟨S64x8192x256, .f32⟩
  | .hbm, ⟨33, _⟩ => ⟨S64x8192x256, .f32⟩
  | .hbm, ⟨34, _⟩ => ⟨S_, .f32⟩
  | .hbm, ⟨35, _⟩ => ⟨S64x256, .f32⟩
  | _, _ => ⟨S64x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S64x8192_S64x8192x1_0_1 : S64x8192.BroadcastsInDim S64x8192x1 (![0, 1] : Fin 2 → Fin S64x8192x1.rank)
  bcast_S64x8192x1_S64x8192x256_0_1_2 : S64x8192x1.BroadcastsInDim S64x8192x256 (![0, 1, 2] : Fin 3 → Fin S64x8192x256.rank)
  bcast_S256_S1x1x256_2 : S256.BroadcastsInDim S1x1x256 (![2] : Fin 1 → Fin S1x1x256.rank)
  bcast_S1x1x256_S64x8192x256_0_1_2 : S1x1x256.BroadcastsInDim S64x8192x256 (![0, 1, 2] : Fin 3 → Fin S64x8192x256.rank)
  reducesTo_S64x8192x256_S64x8192_d2 : S64x8192x256.ReducesTo [2] S64x8192
  h_S_ : 0 < S_.numel
  reducesTo_S64x8192_S64_d1 : S64x8192.ReducesTo [1] S64
  bcast_S64_S64x1_0 : S64.BroadcastsInDim S64x1 (![0] : Fin 1 → Fin S64x1.rank)
  bcast_S64x1_S64x8192_0_1 : S64x1.BroadcastsInDim S64x8192 (![0, 1] : Fin 2 → Fin S64x8192.rank)
  reducesTo_S64x8192x256_S64x256_d1 : S64x8192x256.ReducesTo [1] S64x256
  dot_S64x8192x256_S256x256_S64x8192x256_2_0_01_1_n_n_wf : DotDims.WF S64x8192x256 S256x256 S64x8192x256 [2] [0] [0, 1] [1] [] []

variable [Facts₀]

def dot_S64x8192x256_S256x256_S64x8192x256_2_0_01_1_n_n : DotDims S64x8192x256 S256x256 S64x8192x256 where
  lhsContracting := [2]
  rhsContracting := [0]
  lhsNonContracting := [0, 1]
  rhsNonContracting := [1]
  lhsBatch := []
  rhsBatch := []
  wf := dot_S64x8192x256_S256x256_S64x8192x256_2_0_01_1_n_n_wf

class Facts : Prop extends Facts₀ where

variable [Facts]
-- ==== Proof.AttnSpec.lean ====
/-
  Additive attention over a masked sequence, as functions of the argument arrays on the extended reals.

  For a batch row `b`, a position `t` and a unit `u`:
    proj b t u   = ∑ d, x[b,t,d] · w[d,u]                       the projected input
    score b t    = (∑ u, v[u] · tanh (bias[u] + proj b t u)) · mask[b,t]
    ex b t       = exp (score b t) · mask[b,t]                   the unnormalised weight
    total b      = ∑ t, ex b t
    weights b t  = ex b t / total b
    ctx b u      = (∑ t, ex b t · proj b t u) / total b           the context vector
  This is the single-pass form: the weighted sum is accumulated unnormalised and divided once.

  The two-pass form masks the input before projecting it, masks every later product again, normalises the
  weights first and sums the normalised products (`projM`, `scoreM`, `exM`, `totalM`, `weightsM`, `ctxM`).
  With a 0/1 mask, finite arrays and a row that has an unmasked position the two forms agree; on a row with
  no unmasked position `total b = 0` and they do not (a quotient by zero against a sum of zeros).
-/
import Idealize.ShloMosaic.PureOps.Ideal
import Idealize.ShloMosaic.Lib.ValueIdx

noncomputable section

namespace Cert.Attn

open Idealize.ShloMosaic Idealize.ShloMosaic.ValueIdx

/-- The input sequence `[64, 8192, 256]`, the mask `[64, 8192]`, the projection `[256, 256]`, a vector `[256]`. -/
abbrev SX : Shape := ⟨3, ![64, 8192, 256]⟩
abbrev SM : Shape := ⟨2, ![64, 8192]⟩
abbrev SW : Shape := ⟨2, ![256, 256]⟩
abbrev SV : Shape := ⟨1, ![256]⟩

variable (X : SX.Idx → EReal) (M : SM.Idx → BitVec 1) (W : SW.Idx → EReal) (B V : SV.Idx → EReal)

/-- The mask entry as a number: 0 or 1. -/
def mk (b : Fin 64) (t : Fin 8192) : EReal := (((M (ix2 b t)).toNat : ℝ) : EReal)

/-! ## The single-pass form -/

def proj (b : Fin 64) (t : Fin 8192) (u : Fin 256) : EReal := ∑ d : Fin 256, X (ix3 b t d) * W (ix2 d u)

def score (b : Fin 64) (t : Fin 8192) : EReal :=
  (∑ u : Fin 256, V (ix1 u) * Ideal.tanh (B (ix1 u) + proj X W b t u)) * mk M b t

def ex (b : Fin 64) (t : Fin 8192) : EReal := Ideal.exp (score X M W B V b t) * mk M b t

def total (b : Fin 64) : EReal := ∑ t : Fin 8192, ex X M W B V b t

def weights (b : Fin 64) (t : Fin 8192) : EReal := Ideal.div (ex X M W B V b t) (total X M W B V b)

def ctx (b : Fin 64) (u : Fin 256) : EReal :=
  Ideal.div (∑ t : Fin 8192, ex X M W B V b t * proj X W b t u) (total X M W B V b)

/-! ## The two-pass form -/

def projM (b : Fin 64) (t : Fin 8192) (u : Fin 256) : EReal :=
  ∑ d : Fin 256, (X (ix3 b t d) * mk M b t) * W (ix2 d u)

def scoreM (b : Fin 64) (t : Fin 8192) : EReal :=
  ∑ u : Fin 256, (V (ix1 u) * Ideal.tanh (B (ix1 u) + projM X M W b t u)) * mk M b t

def exM (b : Fin 64) (t : Fin 8192) : EReal := Ideal.exp (scoreM X M W B V b t) * mk M b t

def totalM (b : Fin 64) : EReal := ∑ t : Fin 8192, exM X M W B V b t * mk M b t

def weightsM (b : Fin 64) (t : Fin 8192) : EReal := Ideal.div (exM X M W B V b t) (totalM X M W B V b)

def ctxM (b : Fin 64) (u : Fin 256) : EReal :=
  ∑ t : Fin 8192, (weightsM X M W B V b t * projM X M W b t u) * mk M b t

end Cert.Attn

end
-- ==== Proof.AttnRef.lean ====
/-
  The two-pass reference read index by index: its two results are `ctxM` and `weightsM` of the argument arrays.

  Every stage of the reference is read at an index built from its coordinates, innermost stage first:
  the mask as a number, the masked input, its projection (`projM`), the masked score terms and their sum over the
  units (`scoreM`), the masked exponential (`exM`), its masked sum over the positions (`totalM`), the quotient
  (`weightsM`) and the masked sum of the normalised products over the positions (`ctxM`). A broadcast reads its
  operand at the index with the new axes dropped; a sum starts from the constant zero, which `zero_add` removes.
-/
import proofs.«148173_j90563680403619_2_alg».proof.Proof.Gen.ReferenceIdeal.Read
import proofs.«148173_j90563680403619_2_alg».proof.Proof.AttnSpec

noncomputable section

namespace Cert.Attn.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S64x8192x256, .f32⟩ : BufTy).Contents (Elt Ideal)) (x1 : (⟨S64x8192, .i1⟩ : BufTy).Contents (Elt Ideal))
  (x2 : (⟨S256x256, .f32⟩ : BufTy).Contents (Elt Ideal)) (x3 x4 : (⟨S256, .f32⟩ : BufTy).Contents (Elt Ideal))

/-! ## The mask as a number -/

/-- The converted mask at `(b, t)` is the mask entry as the number 0 or 1. -/
theorem v0_at (b : Fin 64) (t : Fin 8192) : val_main_v0 (F := Ideal) x1 (ix2 b t) = mk x1 b t := rfl

/-- The mask broadcast along the units reads the mask entry of its row and position. -/
theorem v2_at (b : Fin 64) (t : Fin 8192) (d : Fin 256) : val_main_v2 (F := Ideal) x1 (ix3 b t d) = mk x1 b t := by
  rw [val_main_v2_apply, val_main_v1_apply,
    show idx_main_v1 (idx_main_v2 (ix3 b t d)) = ix2 b t from
      funext fun a => by match a with | ⟨0, _⟩ => rfl | ⟨1, _⟩ => rfl]
  exact v0_at x1 b t

theorem v12_at (b : Fin 64) (t : Fin 8192) (d : Fin 256) : val_main_v12 (F := Ideal) x1 (ix3 b t d) = mk x1 b t := by
  rw [val_main_v12_apply, val_main_v1_apply,
    show idx_main_v1 (idx_main_v12 (ix3 b t d)) = ix2 b t from
      funext fun a => by match a with | ⟨0, _⟩ => rfl | ⟨1, _⟩ => rfl]
  exact v0_at x1 b t

theorem v25_at (b : Fin 64) (t : Fin 8192) (d : Fin 256) : val_main_v25 (F := Ideal) x1 (ix3 b t d) = mk x1 b t := by
  rw [val_main_v25_apply, val_main_v1_apply,
    show idx_main_v1 (idx_main_v25 (ix3 b t d)) = ix2 b t from
      funext fun a => by match a with | ⟨0, _⟩ => rfl | ⟨1, _⟩ => rfl]
  exact v0_at x1 b t

/-! ## The projection of the masked input -/

/-- The masked input at `(b, t, d)`. -/
theorem v3_at (b : Fin 64) (t : Fin 8192) (d : Fin 256) :
    val_main_v3 (F := Ideal) x0 x1 (ix3 b t d) = x0 (ix3 b t d) * mk x1 b t := by
  rw [val_main_v3_apply, v2_at, Ideal.mulf_def]

/-- The contraction of the masked input with the projection matrix is `projM`. -/
theorem v4_at (b : Fin 64) (t : Fin 8192) (u : Fin 256) :
    val_main_v4 (F := Ideal) x0 x1 x2 (ix3 b t u) = projM x0 x1 x2 b t u := by
  rw [val_main_v4_apply]
  unfold projM
  refine Finset.sum_congr rfl fun k _ => ?_
  rw [show lidx_main_v4 (ix3 b t u) k = ix3 b t k from
      funext fun a => by match a with | ⟨0, _⟩ => rfl | ⟨1, _⟩ => rfl | ⟨2, _⟩ => rfl,
    show ridx_main_v4 (ix3 b t u) k = ix2 k u from
      funext fun a => by match a with | ⟨0, _⟩ => rfl | ⟨1, _⟩ => rfl,
    v3_at]

/-! ## The score -/

/-- The bias broadcast over rows and positions reads the bias of its unit. -/
theorem v6_at (b : Fin 64) (t : Fin 8192) (u : Fin 256) : val_main_v6 (F := Ideal) x3 (ix3 b t u) = x3 (ix1 u) := by
  rw [val_main_v6_apply, val_main_v5_apply]
  exact congrArg x3 (funext fun a => by match a with | ⟨0, _⟩ => rfl)

/-- The vector broadcast over rows and positions reads the entry of its unit. -/
theorem v10_at (b : Fin 64) (t : Fin 8192) (u : Fin 256) : val_main_v10 (F := Ideal) x4 (ix3 b t u) = x4 (ix1 u) := by
  rw [val_main_v10_apply, val_main_v9_apply]
  exact congrArg x4 (funext fun a => by match a with | ⟨0, _⟩ => rfl)

/-- The masked score term of the unit `u`. -/
theorem v13_at (b : Fin 64) (t : Fin 8192) (u : Fin 256) :
    val_main_v13 (F := Ideal) x0 x1 x2 x3 x4 (ix3 b t u)
      = (x4 (ix1 u) * Ideal.tanh (x3 (ix1 u) + projM x0 x1 x2 b t u)) * mk x1 b t := by
  rw [val_main_v13_apply, val_main_v11_apply, val_main_v8_apply, val_main_v7_apply, v10_at, v6_at, v4_at, v12_at,
    Ideal.addf_def, Ideal.hostUnary_tanh_def, Ideal.mulf_def, Ideal.mulf_def]

/-- The sum of the masked score terms over the units is `scoreM`. -/
theorem v14_at (b : Fin 64) (t : Fin 8192) :
    val_main_v14 (F := Ideal) x0 x1 x2 x3 x4 (ix2 b t) = scoreM x0 x1 x2 x3 x4 b t := by
  rw [val_main_v14_apply, val_main_cst_apply, Ideal.ofBits_def, Ideal.ofBits_zero_f32, zero_add]
  unfold scoreM
  refine Finset.sum_congr rfl fun k _ => ?_
  rw [show idx_main_v14 (ix2 b t) k = ix3 b t k from
      funext fun a => by match a with | ⟨0, _⟩ => rfl | ⟨1, _⟩ => rfl | ⟨2, _⟩ => rfl,
    v13_at]

/-! ## The weights -/

/-- The masked exponential of the score is `exM`. -/
theorem v16_at (b : Fin 64) (t : Fin 8192) :
    val_main_v16 (F := Ideal) x0 x1 x2 x3 x4 (ix2 b t) = exM x0 x1 x2 x3 x4 b t := by
  rw [val_main_v16_apply, val_main_v15_apply, v14_at, v0_at, Ideal.hostUnary_exp_def, Ideal.mulf_def]
  rfl

/-- Masked once more, the term the normalising sum adds. -/
theorem v17_at (b : Fin 64) (t : Fin 8192) :
    val_main_v17 (F := Ideal) x0 x1 x2 x3 x4 (ix2 b t) = exM x0 x1 x2 x3 x4 b t * mk x1 b t := by
  rw [val_main_v17_apply, v16_at, v0_at, Ideal.mulf_def]

/-- The sum over the positions is `totalM`. -/
theorem v18_at (b : Fin 64) : val_main_v18 (F := Ideal) x0 x1 x2 x3 x4 (ix1 b) = totalM x0 x1 x2 x3 x4 b := by
  rw [val_main_v18_apply, val_main_cst_0_apply, Ideal.ofBits_def, Ideal.ofBits_zero_f32, zero_add]
  unfold totalM
  refine Finset.sum_congr rfl fun k _ => ?_
  rw [show idx_main_v18 (ix1 b) k = ix2 b k from
      funext fun a => by match a with | ⟨0, _⟩ => rfl | ⟨1, _⟩ => rfl,
    v17_at]

/-- The total broadcast along the positions reads the total of its row. -/
theorem v20_at (b : Fin 64) (t : Fin 8192) :
    val_main_v20 (F := Ideal) x0 x1 x2 x3 x4 (ix2 b t) = totalM x0 x1 x2 x3 x4 b := by
  rw [val_main_v20_apply, val_main_v19_apply,
    show idx_main_v19 (idx_main_v20 (ix2 b t)) = ix1 b from
      funext fun a => by match a with | ⟨0, _⟩ => rfl,
    v18_at]

/-- The quotient is `weightsM`. -/
theorem v21_at (b : Fin 64) (t : Fin 8192) :
    val_main_v21 (F := Ideal) x0 x1 x2 x3 x4 (ix2 b t) = weightsM x0 x1 x2 x3 x4 b t := by
  rw [val_main_v21_apply, v16_at, v20_at, Ideal.hostDivf_def]
  rfl

/-! ## The context vector -/

/-- The weights broadcast along the units read the weight of their row and position. -/
theorem v23_at (b : Fin 64) (t : Fin 8192) (u : Fin 256) :
    val_main_v23 (F := Ideal) x0 x1 x2 x3 x4 (ix3 b t u) = weightsM x0 x1 x2 x3 x4 b t := by
  rw [val_main_v23_apply, val_main_v22_apply,
    show idx_main_v22 (idx_main_v23 (ix3 b t u)) = ix2 b t from
      funext fun a => by match a with | ⟨0, _⟩ => rfl | ⟨1, _⟩ => rfl,
    v21_at]

/-- The masked normalised product of the position `t`. -/
theorem v26_at (b : Fin 64) (t : Fin 8192) (u : Fin 256) :
    val_main_v26 (F := Ideal) x0 x1 x2 x3 x4 (ix3 b t u)
      = (weightsM x0 x1 x2 x3 x4 b t * projM x0 x1 x2 b t u) * mk x1 b t := by
  rw [val_main_v26_apply, val_main_v24_apply, v23_at, v4_at, v25_at, Ideal.mulf_def, Ideal.mulf_def]

/-- The sum over the positions is `ctxM`. -/
theorem v27_at (b : Fin 64) (u : Fin 256) :
    val_main_v27 (F := Ideal) x0 x1 x2 x3 x4 (ix2 b u) = ctxM x0 x1 x2 x3 x4 b u := by
  rw [val_main_v27_apply, val_main_cst_1_apply, Ideal.ofBits_def, Ideal.ofBits_zero_f32, zero_add]
  unfold ctxM
  refine Finset.sum_congr rfl fun k _ => ?_
  rw [show idx_main_v27 (ix2 b u) k = ix3 b k u from
      funext fun a => by match a with | ⟨0, _⟩ => rfl | ⟨1, _⟩ => rfl | ⟨2, _⟩ => rfl,
    v26_at]

/-! ## The two results -/

/-- The reference's first result is the two-pass context vector. -/
theorem ctx_eq :
    val_main_v27 (F := Ideal) x0 x1 x2 x3 x4 = fun i => ctxM x0 x1 x2 x3 x4 (i 0) (i 1) := by
  funext i
  exact (congrArg (val_main_v27 (F := Ideal) x0 x1 x2 x3 x4) (eq_ix2 i)).trans (v27_at x0 x1 x2 x3 x4 (i 0) (i 1))

/-- The reference's second result is the two-pass weights. -/
theorem weights_eq :
    val_main_v21 (F := Ideal) x0 x1 x2 x3 x4 = fun i => weightsM x0 x1 x2 x3 x4 (i 0) (i 1) := by
  funext i
  exact (congrArg (val_main_v21 (F := Ideal) x0 x1 x2 x3 x4) (eq_ix2 i)).trans (v21_at x0 x1 x2 x3 x4 (i 0) (i 1))

end Cert.Attn.Ref

end
-- ==== Proof.AttnLaw.lean ====
/-
  The single-pass and the two-pass form of masked additive attention agree.

  A mask entry is the number 0 or 1.  Every extended real satisfies `x * 0 = 0` and `x * 1 = x`, so
  masking the input before the projection changes nothing that a later product with the same mask entry
  does not erase: the scores, the unnormalised weights, their total and the normalised weights of the two
  forms are equal with no hypothesis at all.

  For the context vector the quotient has to be moved through the sum over positions.  With finite arrays
  every quantity is the image of a real number; on a row with an unmasked position the total is a sum of
  non-negative reals one of which is positive, hence a non-zero real, and the quotient by it is the product
  with its reciprocal.  The identity is then the distributive law on the reals, term by term.
-/
import proofs.«148173_j90563680403619_2_alg».proof.Proof.AttnSpec
import Mathlib.Tactic
import Mathlib.Data.EReal.Inv
import Mathlib.Analysis.SpecialFunctions.Exp

noncomputable section

namespace Cert.Attn

open Idealize.ShloMosaic Idealize.ShloMosaic.ValueIdx

/-! ## Two general facts -/

/-- The embedding of the reals in the extended reals commutes with finite sums. -/
theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A one-bit vector has the value 0 or 1. -/
theorem toNat_cases (c : BitVec 1) : c.toNat = 0 ∨ c.toNat = 1 := by
  have := c.isLt
  omega

/-- Moving a constant factor through a sum whose terms carry a 0/1 factor `m t` already:
    `m t * m t = m t`, so one more factor `m t` per term changes nothing. -/
theorem real_identity {ι : Type*} (s : Finset ι) (E p m : ι → ℝ) (c : ℝ)
    (hm : ∀ t, m t = 0 ∨ m t = 1) :
    ∑ t ∈ s, ((E t * m t) * c * p t) * m t = (∑ t ∈ s, (E t * m t) * p t) * c := by
  rw [Finset.sum_mul]
  refine Finset.sum_congr rfl fun t _ => ?_
  rcases hm t with h | h <;> rw [h] <;> ring

section Law

variable {X : SX.Idx → EReal} {M : SM.Idx → BitVec 1} {W : SW.Idx → EReal} {B V : SV.Idx → EReal}

/-! ## The mask entry is 0 or 1 -/

theorem mk_cases (b : Fin 64) (t : Fin 8192) : mk M b t = 0 ∨ mk M b t = 1 := by
  unfold mk
  rcases toNat_cases (M (ix2 b t)) with h | h <;> rw [h] <;> simp

theorem mk_mul_self (b : Fin 64) (t : Fin 8192) : mk M b t * mk M b t = mk M b t := by
  rcases mk_cases (M := M) b t with h | h <;> rw [h] <;> simp

/-! ## The parts that agree with no hypothesis -/

/-- At an unmasked position the masked projection is the projection. -/
theorem projM_of_one {b : Fin 64} {t : Fin 8192} (h : mk M b t = 1) (u : Fin 256) :
    projM X M W b t u = proj X W b t u := by
  unfold projM proj
  simp only [h, mul_one]

/-- The scores agree: at a masked position both are 0, at an unmasked one the projections agree. -/
theorem scoreM_eq (b : Fin 64) (t : Fin 8192) : scoreM X M W B V b t = score X M W B V b t := by
  rcases mk_cases (M := M) b t with h | h
  · unfold scoreM score
    simp only [h, mul_zero, Finset.sum_const_zero]
  · have hp : ∀ u, projM X M W b t u = proj X W b t u := projM_of_one h
    unfold scoreM score
    simp only [hp, h, mul_one]

theorem exM_eq (b : Fin 64) (t : Fin 8192) : exM X M W B V b t = ex X M W B V b t := by
  unfold exM ex
  rw [scoreM_eq]

theorem totalM_eq (b : Fin 64) : totalM X M W B V b = total X M W B V b := by
  unfold totalM total
  refine Finset.sum_congr rfl fun t _ => ?_
  rw [exM_eq]
  unfold ex
  rw [mul_assoc, mk_mul_self]

/-- One term of the two-pass context sum, written with the single-pass weights and projection. -/
theorem ctx_term (b : Fin 64) (t : Fin 8192) (u : Fin 256) :
    (weightsM X M W B V b t * projM X M W b t u) * mk M b t
      = (weights X M W B V b t * proj X W b t u) * mk M b t := by
  unfold weightsM weights
  rw [exM_eq, totalM_eq]
  rcases mk_cases (M := M) b t with h | h
  · rw [h, mul_zero, mul_zero]
  · rw [projM_of_one h]

/-! ## Finite arrays: every quantity is the image of a real number -/

def mR (M : SM.Idx → BitVec 1) (b : Fin 64) (t : Fin 8192) : ℝ := ((M (ix2 b t)).toNat : ℝ)

def projR (x : SX.Idx → ℝ) (w : SW.Idx → ℝ) (b : Fin 64) (t : Fin 8192) (u : Fin 256) : ℝ :=
  ∑ d : Fin 256, x (ix3 b t d) * w (ix2 d u)

def scoreR (M : SM.Idx → BitVec 1) (x : SX.Idx → ℝ) (w : SW.Idx → ℝ) (bb v : SV.Idx → ℝ)
    (b : Fin 64) (t : Fin 8192) : ℝ :=
  (∑ u : Fin 256, v (ix1 u) * Real.tanh (bb (ix1 u) + projR x w b t u)) * mR M b t

def exR (M : SM.Idx → BitVec 1) (x : SX.Idx → ℝ) (w : SW.Idx → ℝ) (bb v : SV.Idx → ℝ)
    (b : Fin 64) (t : Fin 8192) : ℝ :=
  Real.exp (scoreR M x w bb v b t) * mR M b t

def totalR (M : SM.Idx → BitVec 1) (x : SX.Idx → ℝ) (w : SW.Idx → ℝ) (bb v : SV.Idx → ℝ)
    (b : Fin 64) : ℝ :=
  ∑ t : Fin 8192, exR M x w bb v b t

theorem mk_coe (b : Fin 64) (t : Fin 8192) : mk M b t = (mR M b t : EReal) := rfl

theorem mR_cases (M : SM.Idx → BitVec 1) (b : Fin 64) (t : Fin 8192) :
    mR M b t = 0 ∨ mR M b t = 1 := by
  unfold mR
  rcases toNat_cases (M (ix2 b t)) with h | h <;> rw [h] <;> simp

variable {x : SX.Idx → ℝ} {w : SW.Idx → ℝ} {bb v : SV.Idx → ℝ}

theorem proj_coe (hx : ∀ i, X i = (x i : EReal)) (hw : ∀ i, W i = (w i : EReal))
    (b : Fin 64) (t : Fin 8192) (u : Fin 256) :
    proj X W b t u = (projR x w b t u : EReal) := by
  unfold proj projR
  rw [coe_finset_sum]
  refine Finset.sum_congr rfl fun d _ => ?_
  rw [hx, hw, EReal.coe_mul]

theorem score_coe (hx : ∀ i, X i = (x i : EReal)) (hw : ∀ i, W i = (w i : EReal))
    (hb : ∀ i, B i = (bb i : EReal)) (hv : ∀ i, V i = (v i : EReal))
    (b : Fin 64) (t : Fin 8192) :
    score X M W B V b t = (scoreR M x w bb v b t : EReal) := by
  unfold score scoreR
  rw [EReal.coe_mul, coe_finset_sum, mk_coe]
  congr 1
  refine Finset.sum_congr rfl fun u _ => ?_
  rw [hv, hb, proj_coe hx hw, ← EReal.coe_add, Ideal.tanh_coe, EReal.coe_mul]

theorem ex_coe (hx : ∀ i, X i = (x i : EReal)) (hw : ∀ i, W i = (w i : EReal))
    (hb : ∀ i, B i = (bb i : EReal)) (hv : ∀ i, V i = (v i : EReal))
    (b : Fin 64) (t : Fin 8192) :
    ex X M W B V b t = (exR M x w bb v b t : EReal) := by
  unfold ex exR
  rw [score_coe hx hw hb hv, Ideal.exp_coe, EReal.coe_mul, mk_coe]

theorem total_coe (hx : ∀ i, X i = (x i : EReal)) (hw : ∀ i, W i = (w i : EReal))
    (hb : ∀ i, B i = (bb i : EReal)) (hv : ∀ i, V i = (v i : EReal)) (b : Fin 64) :
    total X M W B V b = (totalR M x w bb v b : EReal) := by
  unfold total totalR
  rw [coe_finset_sum]
  exact Finset.sum_congr rfl fun t _ => ex_coe hx hw hb hv b t

/-- On a row with an unmasked position the total is positive: every term is an exponential times 0 or 1,
    and the term at the unmasked position is an exponential. -/
theorem totalR_pos (M : SM.Idx → BitVec 1) (x : SX.Idx → ℝ) (w : SW.Idx → ℝ) (bb v : SV.Idx → ℝ)
    (b : Fin 64) (hrow : ∃ t : Fin 8192, M (ix2 b t) = 1#1) : 0 < totalR M x w bb v b := by
  obtain ⟨t0, ht0⟩ := hrow
  unfold totalR
  refine Finset.sum_pos' (fun t _ => ?_) ⟨t0, Finset.mem_univ _, ?_⟩
  · unfold exR
    rcases mR_cases M b t with h | h <;> rw [h]
    · simp
    · rw [mul_one]; exact (Real.exp_pos _).le
  · have h1 : mR M b t0 = 1 := by unfold mR; rw [ht0]; simp
    unfold exR
    rw [h1, mul_one]
    exact Real.exp_pos _

end Law

/-! ## The law -/

section Main

variable (X : SX.Idx → EReal) (M : SM.Idx → BitVec 1) (W : SW.Idx → EReal) (B V : SV.Idx → EReal)

/-- The normalised weights of the two forms are equal, with no hypothesis. -/
theorem weightsM_eq (b : Fin 64) (t : Fin 8192) :
    weightsM X M W B V b t = weights X M W B V b t := by
  unfold weightsM weights
  rw [exM_eq, totalM_eq]

/-- The context vectors of the two forms are equal on a row with an unmasked position, for finite arrays. -/
theorem ctxM_eq (hX : ∀ i, ∃ r : ℝ, X i = (r : EReal)) (hW : ∀ i, ∃ r : ℝ, W i = (r : EReal))
    (hB : ∀ i, ∃ r : ℝ, B i = (r : EReal)) (hV : ∀ i, ∃ r : ℝ, V i = (r : EReal))
    (b : Fin 64) (hrow : ∃ t : Fin 8192, M (Idealize.ShloMosaic.ValueIdx.ix2 b t) = 1#1)
    (u : Fin 256) : ctxM X M W B V b u = ctx X M W B V b u := by
  choose x hx using hX
  choose w hw using hW
  choose bb hb using hB
  choose v hv using hV
  have hT : totalR M x w bb v b ≠ 0 := (totalR_pos M x w bb v b hrow).ne'
  unfold ctxM ctx
  simp only [ctx_term]
  unfold weights
  rw [total_coe hx hw hb hv]
  simp only [Ideal.div_coe hT, ex_coe hx hw hb hv, proj_coe hx hw, mk_coe, ← EReal.coe_mul,
    ← coe_finset_sum]
  rw [EReal.coe_eq_coe_iff]
  unfold exR
  exact real_identity Finset.univ (fun t => Real.exp (scoreR M x w bb v b t))
    (fun t => projR x w b t u) (mR M b) (1 / totalR M x w bb v b) (mR_cases M b)

end Main

end Cert.Attn

end
-- ==== Proof.AttnPre.lean ====
/-
  The precondition of the masked additive-attention layer, read back as facts about the argument arrays.

  The predicate is a conjunction of five conditions, each a reduction of a one-bit array to a scalar:
  four of the form "every entry of |a| is below +∞" (for the input sequence, the projection matrix, the bias and
  the vector v), and one of the form "every row of the mask has a true entry" (an `or` along the row, then an
  `and` over the rows).  Its value being 1 gives: every float entry is a real number, and for every batch row
  `b` there is a position `t` whose mask bit is 1.
-/
import proofs.«148173_j90563680403619_2_alg».proof.Proof.Gen.Pre_finite_inputs
import Idealize.ShloMosaic.Lib.ReduceAll
import Idealize.ShloMosaic.Lib.ValueIdx
import Idealize.ShloMosaic.PureOps.Ideal

namespace Idealize.ShloMosaic

namespace IntOp

/-- A left fold by `or` over one-bit words that came out 1 either started at 1 or met a word that is 1. -/
theorem foldl_ori_eq_one {ι : Type} (f : ι → BitVec 1) :
    ∀ (l : List ι) (init : BitVec 1), l.foldl (fun r n => ori r (f n)) init = 1#1 → init = 1#1 ∨ ∃ n ∈ l, f n = 1#1
  | [], _, h => Or.inl h
  | a :: l, init, h => by
    rcases foldl_ori_eq_one f l _ h with h1 | ⟨n, hn, hf⟩
    · rcases ori_eq_one.1 h1 with hi | ha
      · exact Or.inl hi
      · exact Or.inr ⟨a, List.mem_cons_self, ha⟩
    · exact Or.inr ⟨n, List.mem_cons_of_mem _ hn, hf⟩

end IntOp

namespace Host

variable {s t u : Shape} {axes : List (Fin s.rank)}

/-- A reduction by `or` from the initial word 0 that is 1 at the result index `j` had a 1 at some operand index
    that reduces into `j`. -/
theorem reduce_ori_eq_one (x : s.Idx → BitVec 1) (init : u.Idx → BitVec 1) (h : s.ReducesTo axes t) (hu : 0 < u.numel)
    (hinit : init (Shape.Idx.first hu) = 0#1) (j : t.Idx) (e : Host.reduce IntOp.ori x init h hu j = 1#1) :
    ∃ i : s.Idx, h.drop i = j ∧ x i = 1#1 := by
  rw [Host.reduce_eq_foldl] at e
  rcases IntOp.foldl_ori_eq_one x _ _ e with h0 | ⟨i, hi, hx⟩
  · rw [hinit] at h0; exact absurd h0 (by decide)
  · rw [List.mem_filter] at hi
    exact ⟨i, by simpa using hi.2, hx⟩

end Host

end Idealize.ShloMosaic

namespace Cert.Attn.Pre

open Idealize.ShloMosaic Idealize.ShloMosaic.ValueIdx Cert.Pre_finite_inputs

/-- The scalar shape has one index. -/
instance : Subsingleton S_.Idx := ⟨fun a b => funext fun d => d.elim0⟩

/-- The bit pattern 0x7F800000 of the 32-bit format denotes +∞. -/
theorem inf_bits : Ideal.ofBits .f32 0x7F800000#32 = (⊤ : EReal) := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  change Ideal.cmp .olt (max x (-x)) (Ideal.ofBits .f32 0x7F800000#32) = 1#1 at h
  rw [inf_bits] at h
  have hb : ∀ c : Bool, BitVec.ofBool c = 1#1 → c = true := by decide
  have hlt : max x (-x) < ⊤ := of_decide_eq_true (hb _ h)
  induction x using EReal.rec with
  | bot => simp at hlt
  | top => simp at hlt
  | coe r => exact ⟨r, rfl⟩

theorem decode [Cert.Pre_finite_inputs.Facts] (x0 : FVec Ideal Cert.Pre_finite_inputs.S64x8192x256 .f32) (x1 : IVec Cert.Pre_finite_inputs.S64x8192 1) (x2 : FVec Ideal Cert.Pre_finite_inputs.S256x256 .f32) (x3 x4 : FVec Ideal Cert.Pre_finite_inputs.S256 .f32)
    (h : Cert.Pre_finite_inputs.fn (F := Ideal) x0 x1 x2 x3 x4 = (fun _ => 1#1)) :
    (∀ i, ∃ r : ℝ, x0 i = (r : EReal)) ∧ (∀ i, ∃ r : ℝ, x2 i = (r : EReal)) ∧ (∀ i, ∃ r : ℝ, x3 i = (r : EReal)) ∧ (∀ i, ∃ r : ℝ, x4 i = (r : EReal))
    ∧ (∀ b : Fin 64, ∃ t : Fin 8192, x1 (Idealize.ShloMosaic.ValueIdx.ix2 b t) = 1#1) := by
  have e := congrFun h ValueIdx.ix0
  dsimp only [Cert.Pre_finite_inputs.fn, Cert.Pre_finite_inputs.fn_part1] at e
  simp only [andi, IntOp.andi_eq_one] at e
  obtain ⟨⟨⟨⟨h0, h2⟩, h3⟩, h4⟩, hm⟩ := e
  refine ⟨fun i => ?_, fun i => ?_, fun i => ?_, fun i => ?_, fun b => ?_⟩
  · exact real_of_abs_lt (x0 i) (Host.reduce_andi_all _ _ _ _ _ h0 i)
  · exact real_of_abs_lt (x2 i) (Host.reduce_andi_all _ _ _ _ _ h2 i)
  · exact real_of_abs_lt (x3 i) (Host.reduce_andi_all _ _ _ _ _ h3 i)
  · exact real_of_abs_lt (x4 i) (Host.reduce_andi_all _ _ _ _ _ h4 i)
  · have hb := Host.reduce_andi_all _ _ _ _ _ hm (ix1 b)
    obtain ⟨i, hd, hx⟩ := Host.reduce_ori_eq_one _ _ _ _ rfl _ hb
    have hc : (i 0).val = b.val := by
      have hv := Shape.ReducesTo.drop_apply_val_of_eq Facts.reducesTo_S64x8192_S64_d1 i 0 0
      rw [hd] at hv
      exact hv.symm
    have hi : ix2 b (i 1) = i := by
      funext a
      match a with
      | ⟨0, _⟩ => exact Fin.ext hc.symm
      | ⟨1, _⟩ => rfl
    exact ⟨i 1, (congrArg x1 hi).trans hx⟩

end Cert.Attn.Pre
-- ==== Proof.KPieces.lean ====
/-
  What one run of the kernel body leaves in its two output blocks and in the carried 1×1 accumulator, as values.

  At the first sequence tile of a batch row (case A) the body zeroes the context accumulator and the weight-sum
  accumulator, then adds this tile's contributions; at the second tile (case B) it adds to what the first tile
  left and divides the context accumulator by the weight sum. Each output's contents after the body are the
  payload of its last covering store, with every load of a buffer the body has already stored into replaced by
  that store's payload.
-/
import proofs.«148173_j90563680403619_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The unnormalised weights of a tile, as the column the body stores: the same in both cases. -/
theorem tileA_weights (c : Dev nD) (i : grid0.Coords) (arg2 : Memref sig .tc .vmem S1x4096x256 .f32) (harg2 : arg2.IsWhole) (arg3 : Memref sig .tc .vmem S1x4096x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x4096x1 .f32) (harg7 : arg7.IsWhole) (arg8 : Memref sig .tc .vmem S1x1x256 .f32) (harg8 : arg8.IsWhole) (arg9 : Memref sig .tc .vmem S1x1 .f32) (harg9 : arg9.IsWhole) (hc0 : cond0_0 i) (hc1 : ¬cond0_1 i) (x0 : Vec F S1x4096x256 .f32) (x1 : Vec F S1x4096x1 .f32) (x2 : Vec F S256x256 .f32) (x3 : Vec F S1x256 .f32) (x4 : Vec F S1x256 .f32) :
    out0_A_5 c i arg2 harg2 arg3 harg3 arg4 harg4 arg5 harg5 arg6 harg6 arg7 harg7 arg8 harg8 arg9 harg9 hc0 hc1 x0 x1 x2 x3 x4 = k0_pay8 x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  rw [View.canon_unit_zero hz3]
  simp only [View.readAt_eq_ld, harg2.read_unread, harg3.read_unread, harg4.read_unread, harg5.read_unread, harg6.read_unread, View.ld_unit_zero (S := S1x4096x256) hz3, View.ld_unit_zero (S := S1x4096x1) hz3, View.ld_unit_zero (S := S256x256) hz2, View.ld_unit_zero (S := S1x256) hz2, View.ld_unit_zero (S := S1x1x256) hz3, View.ld_unit_zero (S := S1x1) hz2]

/-- First tile: the context accumulator is zero plus this tile's weighted sum of projected rows. -/
theorem tileA_ctx (c : Dev nD) (i : grid0.Coords) (arg2 : Memref sig .tc .vmem S1x4096x256 .f32) (harg2 : arg2.IsWhole) (arg3 : Memref sig .tc .vmem S1x4096x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x4096x1 .f32) (harg7 : arg7.IsWhole) (arg8 : Memref sig .tc .vmem S1x1x256 .f32) (harg8 : arg8.IsWhole) (arg9 : Memref sig .tc .vmem S1x1 .f32) (harg9 : arg9.IsWhole) (hc0 : cond0_0 i) (hc1 : ¬cond0_1 i) (x0 : Vec F S1x4096x256 .f32) (x1 : Vec F S1x4096x1 .f32) (x2 : Vec F S256x256 .f32) (x3 : Vec F S1x256 .f32) (x4 : Vec F S1x256 .f32) :
    out0_A_6 c i arg2 harg2 arg3 harg3 arg4 harg4 arg5 harg5 arg6 harg6 arg7 harg7 arg8 harg8 arg9 harg9 hc0 hc1 x0 x1 x2 x3 x4 = k0_pay2 (k0_pay6 x0 x2) (k0_pay7 x0 x1 x2 x3 x4) k0_pay4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x1x256) hz3]
  simp only [View.readCov_unit_zero (S := S1x1x256) _ hz3, View.readAt_eq_ld, harg2.read_unread, harg3.read_unread, harg4.read_unread, harg5.read_unread, harg6.read_unread, View.ld_unit_zero (S := S1x4096x256) hz3, View.ld_unit_zero (S := S1x4096x1) hz3, View.ld_unit_zero (S := S256x256) hz2, View.ld_unit_zero (S := S1x256) hz2, View.ld_unit_zero (S := S1x1x256) hz3, View.ld_unit_zero (S := S1x1) hz2]

/-- First tile: the weight-sum accumulator is zero plus this tile's sum of weights. -/
theorem tileA_sum (c : Dev nD) (i : grid0.Coords) (arg2 : Memref sig .tc .vmem S1x4096x256 .f32) (harg2 : arg2.IsWhole) (arg3 : Memref sig .tc .vmem S1x4096x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x4096x1 .f32) (harg7 : arg7.IsWhole) (arg8 : Memref sig .tc .vmem S1x1x256 .f32) (harg8 : arg8.IsWhole) (arg9 : Memref sig .tc .vmem S1x1 .f32) (harg9 : arg9.IsWhole) (hc0 : cond0_0 i) (hc1 : ¬cond0_1 i) (x0 : Vec F S1x4096x256 .f32) (x1 : Vec F S1x4096x1 .f32) (x2 : Vec F S256x256 .f32) (x3 : Vec F S1x256 .f32) (x4 : Vec F S1x256 .f32) :
    sout0_A_0 c i arg2 harg2 arg3 harg3 arg4 harg4 arg5 harg5 arg6 harg6 arg7 harg7 arg8 harg8 arg9 harg9 hc0 hc1 x0 x1 x2 x3 x4 = k0_pay1 (k0_pay9 x0 x1 x2 x3 x4 k0_pay5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x1) hz2]
  simp only [View.readCov_unit_zero (S := S1x1) _ hz2, View.readAt_eq_ld, harg2.read_unread, harg3.read_unread, harg4.read_unread, harg5.read_unread, harg6.read_unread, View.ld_unit_zero (S := S1x4096x256) hz3, View.ld_unit_zero (S := S1x4096x1) hz3, View.ld_unit_zero (S := S256x256) hz2, View.ld_unit_zero (S := S1x256) hz2, View.ld_unit_zero (S := S1x1x256) hz3, View.ld_unit_zero (S := S1x1) hz2]

/-- Second tile: the weights column again. -/
theorem tileB_weights (c : Dev nD) (i : grid0.Coords) (arg2 : Memref sig .tc .vmem S1x4096x256 .f32) (harg2 : arg2.IsWhole) (arg3 : Memref sig .tc .vmem S1x4096x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x4096x1 .f32) (harg7 : arg7.IsWhole) (arg8 : Memref sig .tc .vmem S1x1x256 .f32) (harg8 : arg8.IsWhole) (arg9 : Memref sig .tc .vmem S1x1 .f32) (harg9 : arg9.IsWhole) (hc0 : ¬cond0_0 i) (hc1 : cond0_1 i) (x0 : Vec F S1x4096x256 .f32) (x1 : Vec F S1x4096x1 .f32) (x2 : Vec F S256x256 .f32) (x3 : Vec F S1x256 .f32) (x4 : Vec F S1x256 .f32)
    (xo6 : Vec F S1x1x256 .f32) (xs0 : Vec F S1x1 .f32) :
    out0_B_5 c i arg2 harg2 arg3 harg3 arg4 harg4 arg5 harg5 arg6 harg6 arg7 harg7 arg8 harg8 arg9 harg9 hc0 hc1 x0 x1 x2 x3 x4 xo6 xs0 = k0_pay8 x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xo6 xs0)]
  unfold kernelRun0_B
  dsimp only
  rw [View.canon_unit_zero hz3]
  simp only [View.readAt_eq_ld, harg2.read_unread, harg3.read_unread, harg4.read_unread, harg5.read_unread, harg6.read_unread, View.ld_unit_zero (S := S1x4096x256) hz3, View.ld_unit_zero (S := S1x4096x1) hz3, View.ld_unit_zero (S := S256x256) hz2, View.ld_unit_zero (S := S1x256) hz2, View.ld_unit_zero (S := S1x1x256) hz3, View.ld_unit_zero (S := S1x1) hz2]

/-- Second tile: the weight-sum accumulator is what the first tile left plus this tile's sum of weights. -/
theorem tileB_sum (c : Dev nD) (i : grid0.Coords) (arg2 : Memref sig .tc .vmem S1x4096x256 .f32) (harg2 : arg2.IsWhole) (arg3 : Memref sig .tc .vmem S1x4096x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x4096x1 .f32) (harg7 : arg7.IsWhole) (arg8 : Memref sig .tc .vmem S1x1x256 .f32) (harg8 : arg8.IsWhole) (arg9 : Memref sig .tc .vmem S1x1 .f32) (harg9 : arg9.IsWhole) (hc0 : ¬cond0_0 i) (hc1 : cond0_1 i) (x0 : Vec F S1x4096x256 .f32) (x1 : Vec F S1x4096x1 .f32) (x2 : Vec F S256x256 .f32) (x3 : Vec F S1x256 .f32) (x4 : Vec F S1x256 .f32)
    (xo6 : Vec F S1x1x256 .f32) (xs0 : Vec F S1x1 .f32) :
    sout0_B_0 c i arg2 harg2 arg3 harg3 arg4 harg4 arg5 harg5 arg6 harg6 arg7 harg7 arg8 harg8 arg9 harg9 hc0 hc1 x0 x1 x2 x3 x4 xo6 xs0 = k0_pay1 (k0_pay9 x0 x1 x2 x3 x4 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xo6 xs0)]
  unfold kernelRun0_B
  dsimp only
  sl_unfold_words
  rw [View.canon_unit_zero hz2]
  simp only [harg8.read_unread, harg9.read_unread, View.readAt_eq_ld, harg2.read_unread, harg3.read_unread, harg4.read_unread, harg5.read_unread, harg6.read_unread, View.ld_unit_zero (S := S1x4096x256) hz3, View.ld_unit_zero (S := S1x4096x1) hz3, View.ld_unit_zero (S := S256x256) hz2, View.ld_unit_zero (S := S1x256) hz2, View.ld_unit_zero (S := S1x1x256) hz3, View.ld_unit_zero (S := S1x1) hz2]

/-- Second tile: the context block is the accumulated weighted sum divided by the accumulated weight sum. -/
theorem tileB_ctx (c : Dev nD) (i : grid0.Coords) (arg2 : Memref sig .tc .vmem S1x4096x256 .f32) (harg2 : arg2.IsWhole) (arg3 : Memref sig .tc .vmem S1x4096x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x4096x1 .f32) (harg7 : arg7.IsWhole) (arg8 : Memref sig .tc .vmem S1x1x256 .f32) (harg8 : arg8.IsWhole) (arg9 : Memref sig .tc .vmem S1x1 .f32) (harg9 : arg9.IsWhole) (hc0 : ¬cond0_0 i) (hc1 : cond0_1 i) (x0 : Vec F S1x4096x256 .f32) (x1 : Vec F S1x4096x1 .f32) (x2 : Vec F S256x256 .f32) (x3 : Vec F S1x256 .f32) (x4 : Vec F S1x256 .f32)
    (xo6 : Vec F S1x1x256 .f32) (xs0 : Vec F S1x1 .f32) :
    out0_B_6 c i arg2 harg2 arg3 harg3 arg4 harg4 arg5 harg5 arg6 harg6 arg7 harg7 arg8 harg8 arg9 harg9 hc0 hc1 x0 x1 x2 x3 x4 xo6 xs0
      = k0_pay3 (k0_pay2 (k0_pay6 x0 x2) (k0_pay7 x0 x1 x2 x3 x4) xo6) (k0_pay1 (k0_pay9 x0 x1 x2 x3 x4 xs0)) := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 xo6 xs0)]
  unfold kernelRun0_B
  dsimp only
  sl_unfold_words
  rw [View.canon_cons_unit_zero (S := S1x1x256) hz3]
  simp only [View.readCov_unit_zero (S := S1x1x256) _ hz3, View.readCov_unit_zero (S := S1x1) _ hz2, harg8.read_unread, harg9.read_unread, View.readAt_eq_ld, harg2.read_unread, harg3.read_unread, harg4.read_unread, harg5.read_unread, harg6.read_unread, View.ld_unit_zero (S := S1x4096x256) hz3, View.ld_unit_zero (S := S1x4096x1) hz3, View.ld_unit_zero (S := S256x256) hz2, View.ld_unit_zero (S := S1x256) hz2, View.ld_unit_zero (S := S1x1x256) hz3, View.ld_unit_zero (S := S1x1) hz2]

end Cert.KernelIdeal.Pieces

end
-- ==== Proof.LibAxis.lean ====
/-
  One-axis reductions and two layout operations of small-rank vectors, read at coordinates, at the ideal values.

  * A `vector.multi_reduction <add>` over axis 2 of a rank-4 vector, over axis 0 of a rank-2 vector: the sum over
    that axis's coordinate. A `<minimumf>` / `<maximumf>` over axis 1 of a rank-3 vector: the fold of `min` / `max`
    from the accumulator's value over that axis's coordinate.
  * A `vector.shape_cast` [a, b] → [a, 1, b] (a middle unit axis inserted) read at (i, 0, j) is the operand at (i, j);
    a `vector.broadcast` [a, 1, b] → [a, n, b] read at (i, k, j) is the operand at (i, 0, j).
  Every index is built from coordinates of literal `Fin` types, so the lemmas fire on goals written the same way.
-/
import Idealize.ShloMosaic.PureOps.Ideal.Laws
import Idealize.ShloMosaic.Lib.ValueIdx
import Idealize.ShloMosaic.Lib.Pipeline.Value

noncomputable section

open scoped BigOperators

namespace Cert.LibAxis

open Idealize.ShloMosaic Idealize.ShloMosaic.ValueIdx

variable {φ : FTy}

/-- Summing a rank-4 vector over axis 2: at (i, j, l) the sum over `k` of the entries (i, j, k, l). -/
theorem sum_axis2_of4 {a b c d : ℕ} (x : FVec Ideal ⟨4, ![a, b, c, d]⟩ φ) (acc : BitVec φ.bits)
    (h : (⟨4, ![a, b, c, d]⟩ : Shape).Reduces [2] ⟨3, ![a, b, d]⟩) (hφ : FKind.Formats φ)
    (hacc : acc = FKind.add.neutral φ hφ) (i : Fin a) (j : Fin b) (l : Fin d) :
    multiReduction .add [2] ⟨3, ![a, b, d]⟩ x acc h hφ hacc (ix3 i j l) = ∑ k : Fin c, x (ix4 i j k l) := by
  refine (Ideal.multiReduction_add_single x acc h hφ hacc (ix3 i j l)).trans ?_
  refine Finset.sum_congr rfl fun k _ => ?_
  exact congrArg x (funext fun e => Fin.ext (by
    match e with | ⟨0, _⟩ => rfl | ⟨1, _⟩ => rfl | ⟨2, _⟩ => rfl | ⟨3, _⟩ => rfl))

/-- Summing a rank-2 vector over axis 0: at `j` the sum over `k` of the entries (k, j). -/
theorem sum_axis0_of2 {a b : ℕ} (x : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (j : Fin b) :
    multiReduction .add [0] ⟨1, ![b]⟩ x acc h hφ hacc (ix1 j) = ∑ k : Fin a, x (ix2 k j) := by
  refine (Ideal.multiReduction_add_single x acc h hφ hacc (ix1 j)).trans ?_
  refine Finset.sum_congr rfl fun k _ => ?_
  exact congrArg x (funext fun e => Fin.ext (by match e with | ⟨0, _⟩ => rfl | ⟨1, _⟩ => rfl))

/-- The index (i, j) of a rank-2 shape with the coordinate `k` put back at axis 1 is (i, k, j). -/
theorem lift_axis1_of3 {a n b : ℕ} (h : (⟨3, ![a, n, b]⟩ : Shape).Reduces [1] ⟨2, ![a, b]⟩) (i : Fin a) (j : Fin b)
    (k : Fin n) : h.lift (ix2 i j) k = ix3 i k j :=
  funext fun e => Fin.ext (by match e with | ⟨0, _⟩ => rfl | ⟨1, _⟩ => rfl | ⟨2, _⟩ => rfl)

/-- The least entry along axis 1 of a rank-3 vector, from the accumulator's value. -/
theorem min_axis1_of3 {a n b : ℕ} (x : FVec Ideal ⟨3, ![a, n, b]⟩ φ) (acc : BitVec φ.bits)
    (h : (⟨3, ![a, n, b]⟩ : Shape).Reduces [1] ⟨2, ![a, b]⟩) (hφ : FKind.Formats φ)
    (hacc : acc = FKind.minimumf.neutral φ hφ) (i : Fin a) (j : Fin b) :
    multiReduction .minimumf [1] ⟨2, ![a, b]⟩ x acc h hφ hacc (ix2 i j)
      = (Finset.univ : Finset (Fin n)).fold min (Ideal.ofBits φ acc) (fun k => x (ix3 i k j)) := by
  rw [multiReduction_minimumf_eq_fold]
  refine (h.fold_filter_drop_single _ _ x (ix2 i j)).trans ?_
  exact Finset.fold_congr fun k _ => congrArg x (lift_axis1_of3 h i j k)

/-- The greatest entry along axis 1 of a rank-3 vector, from the accumulator's value. -/
theorem max_axis1_of3 {a n b : ℕ} (x : FVec Ideal ⟨3, ![a, n, b]⟩ φ) (acc : BitVec φ.bits)
    (h : (⟨3, ![a, n, b]⟩ : Shape).Reduces [1] ⟨2, ![a, b]⟩) (hφ : FKind.Formats φ)
    (hacc : acc = FKind.maximumf.neutral φ hφ) (i : Fin a) (j : Fin b) :
    multiReduction .maximumf [1] ⟨2, ![a, b]⟩ x acc h hφ hacc (ix2 i j)
      = (Finset.univ : Finset (Fin n)).fold max (Ideal.ofBits φ acc) (fun k => x (ix3 i k j)) := by
  refine (Ideal.multiReduction_maximumf_single x acc h hφ hacc (ix2 i j)).trans ?_
  exact Finset.fold_congr fun k _ => congrArg x (lift_axis1_of3 h i j k)

variable {α : Type}

/-- [a, b] → [a, 1, b]: the entry (i, 0, j) of the cast is the entry (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, 1, b] → [a, n, b]: the entry (i, k, j) of the broadcast is the entry (i, 0, j). -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (k : Fin n) (j : Fin b) :
    broadcastTo ⟨3, ![a, n, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · omega
    · rfl
  | ⟨1, _⟩ => show 0 = if (1 : ℕ) = 1 then 0 else k.val; rw [if_pos rfl]
  | ⟨2, _⟩ =>
    show j.val = if b = 1 then 0 else j.val
    split
    · omega
    · rfl

end Cert.LibAxis

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KBody.lean ====
/-
  The kernel body's arithmetic on one tile, read at coordinates on the extended reals.

  For a tile of 4096 positions with input rows x0[r, ·], mask column x1[r], projection x2, bias row x3 and
  scoring row x4:
    the projected row           P r u = ∑ d, x0[r,d] · x2[d,u]
    the unnormalised weight     E r   = exp ((∑ u, x4[u] · tanh (x3[u] + P r u)) · x1[r]) · x1[r]
    the weight-sum update       s ↦ s + ∑ r, E r
    the context update          a[u] ↦ a[u] + ∑ r, E r · P r u
    the final division          a[u] / s
  A format change is the identity on the extended reals, so the narrowed matmul operands are the operands.
-/
import proofs.«148173_j90563680403619_2_alg».proof.Proof.Gen.KernelIdeal.Skeleton
import proofs.«148173_j90563680403619_2_alg».proof.Proof.LibAxis
import proofs.«148173_j90563680403619_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Body

open Cert.KernelIdeal Cert.KernelIdeal.Gen

/-! ## Sums over one axis of a rank-2 vector, with the zero accumulator as printed -/

/-- A row's sum: over axis 1 of `[a, b]`, at `i`, the sum over `k` of the entries `(i, k)`. -/
theorem sum_axis1 {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ x 0x00000000#32 h hφ hacc (ix1 i) = ∑ k : Fin b, x (ix2 i k) := by
  refine (Ideal.multiReduction_add_single x 0x00000000#32 h hφ hacc (ix1 i)).trans ?_
  refine Finset.sum_congr rfl fun k _ => ?_
  exact congrArg x (funext fun e => Fin.ext (by match e with | ⟨0, _⟩ => rfl | ⟨1, _⟩ => rfl))

/-- A column's sum: over axis 0 of `[a, b]`, at `j`, the sum over `k` of the entries `(k, j)`. -/
theorem sum_axis0 {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ x 0x00000000#32 h hφ hacc (ix1 j) = ∑ k : Fin a, x (ix2 k j) :=
  Cert.LibAxis.sum_axis0_of2 x 0x00000000#32 h hφ hacc j

/-! ## The matmul's operand indices -/

theorem lhs0 (j : S4096x256.Idx) (q : dot_S4096x256_S256x256_S4096x256_1_0_0_1_n_n.contr.Idx) : (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs1 (j : S4096x256.Idx) (q : dot_S4096x256_S256x256_S4096x256_1_0_0_1_n_n.contr.Idx) : (dot_S4096x256_S256x256_S4096x256_1_0_0_1_n_n.lhsIdx j q 1).val = (q ⟨0, by decide⟩).val :=
  dot_S4096x256_S256x256_S4096x256_1_0_0_1_n_n.lhsIdx_val_of_single rfl j q
theorem rhs0 (j : S4096x256.Idx) (q : dot_S4096x256_S256x256_S4096x256_1_0_0_1_n_n.contr.Idx) : (dot_S4096x256_S256x256_S4096x256_1_0_0_1_n_n.rhsIdx j q 0).val = (q ⟨0, by decide⟩).val :=
  dot_S4096x256_S256x256_S4096x256_1_0_0_1_n_n.rhsIdx_val_of_single rfl j q
theorem rhs1 (j : S4096x256.Idx) (q : dot_S4096x256_S256x256_S4096x256_1_0_0_1_n_n.contr.Idx) : (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-! ## The payloads at coordinates -/

/-- The projected row: `P r u = ∑ d, x0[r,d] · x2[d,u]`. -/
theorem proj_at (x0 : FVec Ideal S1x4096x256 .f32) (x2 : FVec Ideal S256x256 .f32) (r : Fin 4096) (u : Fin 256) :
    k0_pay6 (F := Ideal) x0 x2 (ix2 r u) = ∑ d : Fin 256, x0 (ix3 (0 : Fin 1) r d) * x2 (ix2 d u) := by
  unfold k0_pay6
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r u) ((contrEquiv1 dot_S4096x256_S256x256_S4096x256_1_0_0_1_n_n 256 rfl rfl).symm k) = ix2 r k := funext fun a => Fin.ext (by
    match a with
    | ⟨0, _⟩ => exact lhs0 _ _
    | ⟨1, _⟩ => exact (lhs1 _ _).trans hk)
  have er : dot_S4096x256_S256x256_S4096x256_1_0_0_1_n_n.rhsIdx (ix2 r u) ((contrEquiv1 dot_S4096x256_S256x256_S4096x256_1_0_0_1_n_n 256 rfl rfl).symm k) = ix2 k u := funext fun a => Fin.ext (by
    match a with
    | ⟨0, _⟩ => exact (rhs0 _ _).trans hk
    | ⟨1, _⟩ => exact rhs1 _ _)
  rw [el, er]
  show shapeCast S4096x256 x0 _ (ix2 r k) * x2 (ix2 k u) = _
  rw [shapeCast_1ab_ab_apply]

/-- The unnormalised weight of row `r`: `exp (score · mask) · mask`. -/
theorem ex_at (x0 : FVec Ideal S1x4096x256 .f32) (x1 : FVec Ideal S1x4096x1 .f32) (x2 : FVec Ideal S256x256 .f32)
    (x3 x4 : FVec Ideal S1x256 .f32) (r : Fin 4096) :
    k0_pay7 (F := Ideal) x0 x1 x2 x3 x4 (ix2 r (0 : Fin 1))
      = Ideal.exp ((∑ u : Fin 256, x4 (ix2 (0 : Fin 1) u) * Ideal.tanh (x3 (ix2 (0 : Fin 1) u) + k0_pay6 (F := Ideal) x0 x2 (ix2 r u)))
          * x1 (ix3 (0 : Fin 1) r (0 : Fin 1))) * x1 (ix3 (0 : Fin 1) r (0 : Fin 1)) := by
  unfold k0_pay7
  show Ideal.exp (shapeCast S4096x1 (multiReduction (F := Ideal) .add [1] S4096 _ 0x00000000#32 reduces_S4096x256_S4096 (.inl rfl) rfl) shapeCasts_S4096_S4096x1 (ix2 r (0 : Fin 1))
      * shapeCast S4096x1 x1 shapeCasts_S1x4096x1_S4096x1 (ix2 r (0 : Fin 1))) * shapeCast S4096x1 x1 shapeCasts_S1x4096x1_S4096x1 (ix2 r (0 : Fin 1)) = _
  rw [shapeCast_1ab_ab_apply, Cert.LibKeepdims.shapeCast_a_a1_apply]
  refine congrArg (fun z => Ideal.exp (z * x1 (ix3 (0 : Fin 1) r (0 : Fin 1))) * x1 (ix3 (0 : Fin 1) r (0 : Fin 1))) ?_
  refine (sum_axis1 _ reduces_S4096x256_S4096 (.inl rfl) rfl r).trans ?_
  refine Finset.sum_congr rfl fun u _ => ?_
  show broadcastTo S4096x256 (shapeCast S1x256 x4 _) _ (ix2 r u) * Ideal.tanh (broadcastTo S4096x256 (shapeCast S1x256 x3 _) _ (ix2 r u) + k0_pay6 (F := Ideal) x0 x2 (ix2 r u)) = _
  rw [broadcastTo_1b_ab_apply, broadcastTo_1b_ab_apply, shapeCast_self, shapeCast_self]

/-- The column the body stores is the weights, with a leading unit axis. -/
theorem column_at (x0 : FVec Ideal S1x4096x256 .f32) (x1 : FVec Ideal S1x4096x1 .f32) (x2 : FVec Ideal S256x256 .f32)
    (x3 x4 : FVec Ideal S1x256 .f32) (z : Fin 1) (r : Fin 4096) (z' : Fin 1) :
    k0_pay8 (F := Ideal) x0 x1 x2 x3 x4 (ix3 z r z') = k0_pay7 (F := Ideal) x0 x1 x2 x3 x4 (ix2 r (0 : Fin 1)) := by
  unfold k0_pay8
  show shapeCast S1x4096x1 (k0_pay7 (F := Ideal) x0 x1 x2 x3 x4) _ (ix3 z r z') = _
  rw [shapeCast_ab_1ab_apply]
  exact congrArg _ (congrArg (ix2 r) (Subsingleton.elim _ _))

/-- The weight-sum update: `s + ∑ r, E r`. -/
theorem sum_at (x0 : FVec Ideal S1x4096x256 .f32) (x1 : FVec Ideal S1x4096x1 .f32) (x2 : FVec Ideal S256x256 .f32)
    (x3 x4 : FVec Ideal S1x256 .f32) (s : FVec Ideal S1x1 .f32) :
    k0_pay1 (F := Ideal) (k0_pay9 (F := Ideal) x0 x1 x2 x3 x4 s) (ix2 (0 : Fin 1) (0 : Fin 1))
      = s (ix2 (0 : Fin 1) (0 : Fin 1)) + ∑ r : Fin 4096, k0_pay7 (F := Ideal) x0 x1 x2 x3 x4 (ix2 r (0 : Fin 1)) := by
  unfold k0_pay1 k0_pay9
  rw [shapeCast_self]
  show s (ix2 (0 : Fin 1) (0 : Fin 1)) + shapeCast S1x1 (multiReduction .add [0] S1 (k0_pay7 (F := Ideal) x0 x1 x2 x3 x4) 0x00000000#32 reduces_S4096x1_S1 (.inl rfl) rfl) shapeCasts_S1_S1x1 (ix2 (0 : Fin 1) (0 : Fin 1)) = _
  rw [shapeCast_a_1a_apply]
  exact congrArg (s (ix2 (0 : Fin 1) (0 : Fin 1)) + ·) (sum_axis0 _ reduces_S4096x1_S1 (.inl rfl) rfl (0 : Fin 1))

/-- The context update: `a[u] + ∑ r, E r · P r u`. -/
theorem acc_at (v10 : FVec Ideal S4096x256 .f32) (v24 : FVec Ideal S4096x1 .f32) (a : FVec Ideal S1x1x256 .f32) (u : Fin 256) :
    k0_pay2 (F := Ideal) v10 v24 a (ix3 (0 : Fin 1) (0 : Fin 1) u)
      = a (ix3 (0 : Fin 1) (0 : Fin 1) u) + ∑ r : Fin 4096, v24 (ix2 r (0 : Fin 1)) * v10 (ix2 r u) := by
  unfold k0_pay2
  show shapeCast S1x1x256 (addf (shapeCast S1x256 a shapeCasts_S1x1x256_S1x256) (shapeCast S1x256 (multiReduction .add [0] S256 (mulf (broadcastTo S4096x256 v24 broadcasts_S4096x1_S4096x256) v10) 0x00000000#32 reduces_S4096x256_S256 (.inl rfl) rfl) shapeCasts_S256_S1x256)) shapeCasts_S1x256_S1x1x256 (ix3 (0 : Fin 1) (0 : Fin 1) u) = _
  rw [shapeCast_ab_1ab_apply]
  show shapeCast S1x256 a shapeCasts_S1x1x256_S1x256 (ix2 (0 : Fin 1) u) + shapeCast S1x256 (multiReduction .add [0] S256 (mulf (broadcastTo S4096x256 v24 broadcasts_S4096x1_S4096x256) v10) 0x00000000#32 reduces_S4096x256_S256 (.inl rfl) rfl) shapeCasts_S256_S1x256 (ix2 (0 : Fin 1) u) = _
  rw [shapeCast_1ab_ab_apply, shapeCast_a_1a_apply]
  refine congrArg (a (ix3 (0 : Fin 1) (0 : Fin 1) u) + ·) ((sum_axis0 _ reduces_S4096x256_S256 (.inl rfl) rfl u).trans ?_)
  refine Finset.sum_congr rfl fun r _ => ?_
  show broadcastTo S4096x256 v24 broadcasts_S4096x1_S4096x256 (ix2 r u) * v10 (ix2 r u) = _
  rw [Cert.LibKeepdims.broadcastTo_a1_ab_apply]

/-- The final division: `a[u] / s`. -/
theorem div_at (a : FVec Ideal S1x1x256 .f32) (s : FVec Ideal S1x1 .f32) (u : Fin 256) :
    k0_pay3 (F := Ideal) a s (ix3 (0 : Fin 1) (0 : Fin 1) u)
      = Ideal.div (a (ix3 (0 : Fin 1) (0 : Fin 1) u)) (s (ix2 (0 : Fin 1) (0 : Fin 1))) := by
  unfold k0_pay3
  show shapeCast S1x1x256 (divf (shapeCast S1x256 a shapeCasts_S1x1x256_S1x256) (broadcastTo S1x256 s broadcasts_S1x1_S1x256)) shapeCasts_S1x256_S1x1x256 (ix3 (0 : Fin 1) (0 : Fin 1) u) = _
  rw [shapeCast_ab_1ab_apply]
  show Ideal.div (shapeCast S1x256 a shapeCasts_S1x1x256_S1x256 (ix2 (0 : Fin 1) u)) (broadcastTo S1x256 s broadcasts_S1x1_S1x256 (ix2 (0 : Fin 1) u)) = _
  rw [shapeCast_1ab_ab_apply, Cert.LibKeepdims.broadcastTo_a1_ab_apply]

/-- The zero the first tile stores into the context accumulator. -/
theorem zero_ctx (j : S1x1x256.Idx) : k0_pay4 (F := Ideal) j = 0 := by
  unfold k0_pay4
  show shapeCast S1x1x256 (broadcast S1x256 (Ideal.ofBits .f32 0x00000000#32)) shapeCasts_S1x256_S1x1x256 j = 0
  unfold shapeCast
  exact Ideal.ofBits_zero_f32

/-- The zero the first tile stores into the weight-sum accumulator. -/
theorem zero_sum (j : S1x1.Idx) : k0_pay5 (F := Ideal) j = 0 := by
  unfold k0_pay5
  show shapeCast S1x1 (broadcast S1x1 (Ideal.ofBits .f32 0x00000000#32)) shapeCasts_S1x1_S1x1 j = 0
  unfold shapeCast
  exact Ideal.ofBits_zero_f32

end Cert.KernelIdeal.Body

end
-- ==== Proof.KInvariant.lean ====
/-
  What the two output blocks and the carried weight-sum hold after each grid point.

  Grid point t works on batch row t / 2 and sequence tile t % 2. With E t r the unnormalised weight of row r of
  the tile and P t r u its projected row:
    after an even point   weights block = the tile's weights,  context[u] = ∑ r, E t r · P t r u,  sum = ∑ r, E t r;
    after an odd point    weights block = the tile's weights,  sum = (∑ r, E (t-1) r) + ∑ r, E t r,
                          context[u] = ((∑ r, E (t-1) r · P (t-1) r u) + ∑ r, E t r · P t r u) / sum.
  An odd point looks back exactly one step, to an even point, so no induction over the grid is needed.
-/
import proofs.«148173_j90563680403619_2_alg».proof.Proof.KPieces
import proofs.«148173_j90563680403619_2_alg».proof.Proof.KBody

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen

variable (m : (ℓ : Loc nD τ sig) → Buf (Elt Ideal) ℓ)

/-- The unnormalised weight of row `r` of the tile at point `t`. -/
def E (c : Dev nD) (t : Fin cfg0.N) (r : Fin 4096) : EReal :=
  k0_pay7 (F := Ideal) (iblk m c 0 t) (iblk m c 1 t) (iblk m c 2 t) (iblk m c 3 t) (iblk m c 4 t) (ix2 r (0 : Fin 1))

/-- The projected row `r` of the tile at point `t`, at unit `u`. -/
def P (c : Dev nD) (t : Fin cfg0.N) (r : Fin 4096) (u : Fin 256) : EReal :=
  k0_pay6 (F := Ideal) (iblk m c 0 t) (iblk m c 2 t) (ix2 r u)

/-- The point before. -/
def prev (t : Fin cfg0.N) : Fin cfg0.N := ⟨t.val - 1, Nat.lt_of_le_of_lt (Nat.sub_le _ _) t.isLt⟩

/-! ## Even points -/

theorem even_weights (c : Dev nD) (t : Fin cfg0.N) (h0 : t.val % 2 = 0) (h1 : ¬t.val % 2 = 1) :
    (outsAt0 m c t.val t.isLt).1 = k0_pay8 (F := Ideal) (iblk m c 0 t) (iblk m c 1 t) (iblk m c 2 t) (iblk m c 3 t) (iblk m c 4 t) := by
  rw [outsAt0_A m c t h0 h1]
  dsimp only
  exact Pieces.tileA_weights (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)

theorem even_ctx (c : Dev nD) (t : Fin cfg0.N) (h0 : t.val % 2 = 0) (h1 : ¬t.val % 2 = 1) (u : Fin 256) :
    (outsAt0 m c t.val t.isLt).2.1 (ix3 (0 : Fin 1) (0 : Fin 1) u) = ∑ r : Fin 4096, E m c t r * P m c t r u := by
  have e : (outsAt0 m c t.val t.isLt).2.1 = k0_pay2 (F := Ideal) (k0_pay6 (F := Ideal) (iblk m c 0 t) (iblk m c 2 t)) (k0_pay7 (F := Ideal) (iblk m c 0 t) (iblk m c 1 t) (iblk m c 2 t) (iblk m c 3 t) (iblk m c 4 t)) (k0_pay4 (F := Ideal)) := by
    rw [outsAt0_A m c t h0 h1]
    dsimp only
    exact Pieces.tileA_ctx (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)
  refine (congrFun e (ix3 (0 : Fin 1) (0 : Fin 1) u)).trans ?_
  refine (Body.acc_at (k0_pay6 (F := Ideal) (iblk m c 0 t) (iblk m c 2 t)) (k0_pay7 (F := Ideal) (iblk m c 0 t) (iblk m c 1 t) (iblk m c 2 t) (iblk m c 3 t) (iblk m c 4 t)) (k0_pay4 (F := Ideal)) u).trans ?_
  rw [Body.zero_ctx, zero_add]
  rfl

theorem even_sum (c : Dev nD) (t : Fin cfg0.N) (h0 : t.val % 2 = 0) (h1 : ¬t.val % 2 = 1) :
    (outsAt0 m c t.val t.isLt).2.2 (ix2 (0 : Fin 1) (0 : Fin 1)) = ∑ r : Fin 4096, E m c t r := by
  have e : (outsAt0 m c t.val t.isLt).2.2 = k0_pay1 (F := Ideal) (k0_pay9 (F := Ideal) (iblk m c 0 t) (iblk m c 1 t) (iblk m c 2 t) (iblk m c 3 t) (iblk m c 4 t) (k0_pay5 (F := Ideal))) := by
    rw [outsAt0_A m c t h0 h1]
    dsimp only
    exact Pieces.tileA_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)
  refine (congrFun e (ix2 (0 : Fin 1) (0 : Fin 1))).trans ?_
  refine (Body.sum_at (iblk m c 0 t) (iblk m c 1 t) (iblk m c 2 t) (iblk m c 3 t) (iblk m c 4 t) (k0_pay5 (F := Ideal))).trans ?_
  rw [Body.zero_sum, zero_add]
  rfl

/-! ## Odd points -/

theorem odd_weights (c : Dev nD) (t : Fin cfg0.N) (h0 : ¬t.val % 2 = 0) (h1 : t.val % 2 = 1) :
    (outsAt0 m c t.val t.isLt).1 = k0_pay8 (F := Ideal) (iblk m c 0 t) (iblk m c 1 t) (iblk m c 2 t) (iblk m c 3 t) (iblk m c 4 t) := by
  rw [outsAt0_B m c t h0 h1]
  dsimp only
  exact Pieces.tileB_weights (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) ((outsAt0 m c (t.val - 1) (Nat.lt_of_le_of_lt (Nat.sub_le _ _) t.isLt)).2.1) ((outsAt0 m c (t.val - 1) (Nat.lt_of_le_of_lt (Nat.sub_le _ _) t.isLt)).2.2)

theorem prev_even (t : Fin cfg0.N) (h1 : t.val % 2 = 1) : (prev t).val % 2 = 0 ∧ ¬(prev t).val % 2 = 1 := by
  show (t.val - 1) % 2 = 0 ∧ ¬(t.val - 1) % 2 = 1
  omega

theorem odd_sum (c : Dev nD) (t : Fin cfg0.N) (h0 : ¬t.val % 2 = 0) (h1 : t.val % 2 = 1) :
    (outsAt0 m c t.val t.isLt).2.2 (ix2 (0 : Fin 1) (0 : Fin 1))
      = (∑ r : Fin 4096, E m c (prev t) r) + ∑ r : Fin 4096, E m c t r := by
  have e : (outsAt0 m c t.val t.isLt).2.2 = k0_pay1 (F := Ideal) (k0_pay9 (F := Ideal) (iblk m c 0 t) (iblk m c 1 t) (iblk m c 2 t) (iblk m c 3 t) (iblk m c 4 t) ((outsAt0 m c (t.val - 1) (Nat.lt_of_le_of_lt (Nat.sub_le _ _) t.isLt)).2.2)) := by
    rw [outsAt0_B m c t h0 h1]
    dsimp only
    exact Pieces.tileB_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) ((outsAt0 m c (t.val - 1) (Nat.lt_of_le_of_lt (Nat.sub_le _ _) t.isLt)).2.1) ((outsAt0 m c (t.val - 1) (Nat.lt_of_le_of_lt (Nat.sub_le _ _) t.isLt)).2.2)
  refine (congrFun e (ix2 (0 : Fin 1) (0 : Fin 1))).trans ?_
  refine (Body.sum_at (iblk m c 0 t) (iblk m c 1 t) (iblk m c 2 t) (iblk m c 3 t) (iblk m c 4 t) ((outsAt0 m c (t.val - 1) (Nat.lt_of_le_of_lt (Nat.sub_le _ _) t.isLt)).2.2)).trans ?_
  exact congrArg (· + ∑ r : Fin 4096, E m c t r) (even_sum m c (prev t) (prev_even t h1).1 (prev_even t h1).2)

theorem odd_ctx (c : Dev nD) (t : Fin cfg0.N) (h0 : ¬t.val % 2 = 0) (h1 : t.val % 2 = 1) (u : Fin 256) :
    (outsAt0 m c t.val t.isLt).2.1 (ix3 (0 : Fin 1) (0 : Fin 1) u)
      = Ideal.div ((∑ r : Fin 4096, E m c (prev t) r * P m c (prev t) r u) + ∑ r : Fin 4096, E m c t r * P m c t r u)
          ((∑ r : Fin 4096, E m c (prev t) r) + ∑ r : Fin 4096, E m c t r) := by
  have e : (outsAt0 m c t.val t.isLt).2.1
      = k0_pay3 (F := Ideal) (k0_pay2 (F := Ideal) (k0_pay6 (F := Ideal) (iblk m c 0 t) (iblk m c 2 t)) (k0_pay7 (F := Ideal) (iblk m c 0 t) (iblk m c 1 t) (iblk m c 2 t) (iblk m c 3 t) (iblk m c 4 t)) ((outsAt0 m c (t.val - 1) (Nat.lt_of_le_of_lt (Nat.sub_le _ _) t.isLt)).2.1)) (k0_pay1 (F := Ideal) (k0_pay9 (F := Ideal) (iblk m c 0 t) (iblk m c 1 t) (iblk m c 2 t) (iblk m c 3 t) (iblk m c 4 t) ((outsAt0 m c (t.val - 1) (Nat.lt_of_le_of_lt (Nat.sub_le _ _) t.isLt)).2.2))) := by
    rw [outsAt0_B m c t h0 h1]
    dsimp only
    exact Pieces.tileB_ctx (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) ((outsAt0 m c (t.val - 1) (Nat.lt_of_le_of_lt (Nat.sub_le _ _) t.isLt)).2.1) ((outsAt0 m c (t.val - 1) (Nat.lt_of_le_of_lt (Nat.sub_le _ _) t.isLt)).2.2)
  refine (congrFun e (ix3 (0 : Fin 1) (0 : Fin 1) u)).trans ?_
  refine (Body.div_at (k0_pay2 (F := Ideal) (k0_pay6 (F := Ideal) (iblk m c 0 t) (iblk m c 2 t)) (k0_pay7 (F := Ideal) (iblk m c 0 t) (iblk m c 1 t) (iblk m c 2 t) (iblk m c 3 t) (iblk m c 4 t)) ((outsAt0 m c (t.val - 1) (Nat.lt_of_le_of_lt (Nat.sub_le _ _) t.isLt)).2.1)) (k0_pay1 (F := Ideal) (k0_pay9 (F := Ideal) (iblk m c 0 t) (iblk m c 1 t) (iblk m c 2 t) (iblk m c 3 t) (iblk m c 4 t) ((outsAt0 m c (t.val - 1) (Nat.lt_of_le_of_lt (Nat.sub_le _ _) t.isLt)).2.2))) u).trans ?_
  refine congrArg₂ Ideal.div ?_ ?_
  · refine (Body.acc_at (k0_pay6 (F := Ideal) (iblk m c 0 t) (iblk m c 2 t)) (k0_pay7 (F := Ideal) (iblk m c 0 t) (iblk m c 1 t) (iblk m c 2 t) (iblk m c 3 t) (iblk m c 4 t)) ((outsAt0 m c (t.val - 1) (Nat.lt_of_le_of_lt (Nat.sub_le _ _) t.isLt)).2.1) u).trans ?_
    exact congrArg (· + ∑ r : Fin 4096, E m c t r * P m c t r u) (even_ctx m c (prev t) (prev_even t h1).1 (prev_even t h1).2 u)
  · refine (Body.sum_at (iblk m c 0 t) (iblk m c 1 t) (iblk m c 2 t) (iblk m c 3 t) (iblk m c 4 t) ((outsAt0 m c (t.val - 1) (Nat.lt_of_le_of_lt (Nat.sub_le _ _) t.isLt)).2.2)).trans ?_
    exact congrArg (· + ∑ r : Fin 4096, E m c t r) (even_sum m c (prev t) (prev_even t h1).1 (prev_even t h1).2)

end Cert.KernelIdeal.Inv

end
-- ==== Proof.KBlocks.lean ====
/-
  The kernel's input blocks, read at coordinates.

  The grid has 64 × 2 points; point `t` works on batch row `t / 2` and on the half `t % 2` of the 8192 positions:
  position `r` of its block is position `4096 · (t % 2) + r` of the row.  At that point
    the input block         at `(0, r, d)`  is  x[t / 2, 4096 · (t % 2) + r, d],
    the mask block          at `(0, r, 0)`  is  the mask bit of that row and position, as the number 0 or 1,
    the projection block    at `(d, u)`     is  w[d, u]      (the whole matrix at every point),
    the bias and the v block at `(0, u)`    are bias[u] and v[u]  (the vectors as one-row matrices).
-/
import proofs.«148173_j90563680403619_2_alg».proof.Proof.Gen.KernelIdeal.Frame
import proofs.«148173_j90563680403619_2_alg».proof.Proof.AttnSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The grid point's row and positions -/

/-- A grid point is below 128. -/
theorem lt_N (t : Fin cfg0.N) : t.val < 128 := lt_of_lt_of_eq t.isLt (show cfg0.N = 128 from N_0)

/-- The batch row point `t` works on. -/
def row (t : Fin cfg0.N) : Fin 64 := ⟨t.val / 2, by have := lt_N t; omega⟩

/-- The position in the row that position `r` of point `t`'s block is. -/
def pos (t : Fin cfg0.N) (r : Fin 4096) : Fin 8192 := ⟨4096 * (t.val % 2) + r.val, by have := r.isLt; omega⟩

theorem row_val (t : Fin cfg0.N) : (row t).val = t.val / 2 := rfl
theorem pos_val (t : Fin cfg0.N) (r : Fin 4096) : (pos t r).val = 4096 * (t.val % 2) + r.val := rfl

/-- The point of row `b` and half `j`. -/
def pt (b : Fin 64) (j : Fin 2) : Fin cfg0.N := ⟨2 * b.val + j.val, by rw [show cfg0.N = 128 from N_0]; have := b.isLt; have := j.isLt; omega⟩

theorem row_pt (b : Fin 64) (j : Fin 2) : row (pt b j) = b := Fin.ext (by show (2 * b.val + j.val) / 2 = b.val; have := j.isLt; omega)
theorem pos_pt (b : Fin 64) (j : Fin 2) (r : Fin 4096) : (pos (pt b j) r).val = 4096 * j.val + r.val := by
  show 4096 * ((2 * b.val + j.val) % 2) + r.val = _; have := j.isLt; omega

theorem pos_pt_eq (b : Fin 64) (j : Fin 2) (r : Fin 4096) :
    pos (pt b j) r = ⟨4096 * j.val + r.val, by have := j.isLt; have := r.isLt; omega⟩ := Fin.ext (pos_pt b j r)

/-! ## The windows' block indices, decided over the grid -/

theorem idx0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem idx1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

/-! ## The blocks of the arrays no host operation writes -/

/-- The input block at `(0, r, d)` is the input sequence at the point's row, position and `d`. -/
theorem x_at (c : Dev nD) (t : Fin cfg0.N) (r : Fin 4096) (d : Fin 256) :
    (iblk m c 0 t : Vec Ideal S1x4096x256 .f32) (ix3 (0 : Fin 1) r d)
      = m ((c.tc : Thread nD τ).loc main_arg0) (ix3 (row t) (pos t r) d) := by
  unfold iblk
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 1 + 1 * 0 = t.val / 2; rw [(idx0 t).1]; omega
  | ⟨1, _⟩ => show win0_0.index t 1 * 4096 + 1 * r.val = 4096 * (t.val % 2) + r.val; rw [(idx0 t).2.1]; omega
  | ⟨2, _⟩ => show win0_0.index t 2 * 256 + 1 * d.val = d.val; rw [(idx0 t).2.2]; omega

/-- The projection block is the whole projection matrix. -/
theorem w_at (c : Dev nD) (t : Fin cfg0.N) (d u : Fin 256) :
    (iblk m c 2 t : Vec Ideal S256x256 .f32) (ix2 d u) = m ((c.tc : Thread nD τ).loc main_arg2) (ix2 d u) := by
  unfold iblk
  rw [View.read_apply]
  show V m c main_arg2 _ = _
  rw [V_main_arg2]
  refine congrArg (m ((c.tc : Thread nD τ).loc main_arg2)) (funext fun a => Fin.ext ?_)
  match a with
  | ⟨0, _⟩ => show win0_2.index t 0 * 256 + 1 * d.val = d.val; rw [(idx2 t).1]; omega
  | ⟨1, _⟩ => show win0_2.index t 1 * 256 + 1 * u.val = u.val; rw [(idx2 t).2]; omega

/-! ## The arrays the host operations before the region write -/

/-- The mask as the region finds it: converted to 0 / 1 and given a unit last axis. -/
theorem V_mask (c : Dev nD) : (V m c main_v1 : S64x8192x1.Idx → EReal)
    = broadcastInDim S64x8192x1 ![0, 1] Facts₀.bcast_S64x8192_S64x8192x1_0_1
        (uitofp (F := Ideal) .f32 (m ((c.tc : Thread nD τ).loc main_arg1) : S64x8192.Idx → BitVec 1)) := by
  show StableHlo.after hostOps0 (fun b => m (c, b)) (Proc.devRef .tc main_v1) = _
  after_results

/-- The bias as the region finds it: a one-row matrix. -/
theorem V_bias (c : Dev nD) : (V m c main_v2 : S1x256.Idx → EReal)
    = shapeCast S1x256 (m ((c.tc : Thread nD τ).loc main_arg3) : S256.Idx → EReal) Facts₀.shapeCasts_S256_S1x256 := by
  show StableHlo.after hostOps0 (fun b => m (c, b)) (Proc.devRef .tc main_v2) = _
  after_results
  rfl

/-- The vector v as the region finds it: a one-row matrix. -/
theorem V_v (c : Dev nD) : (V m c main_v3 : S1x256.Idx → EReal)
    = shapeCast S1x256 (m ((c.tc : Thread nD τ).loc main_arg4) : S256.Idx → EReal) Facts₀.shapeCasts_S256_S1x256 := by
  show StableHlo.after hostOps0 (fun b => m (c, b)) (Proc.devRef .tc main_v3) = _
  after_results
  rfl

/-- The mask block at `(0, r, 0)` is the mask bit of the point's row and position, as the number 0 or 1. -/
theorem mask_at (c : Dev nD) (t : Fin cfg0.N) (r : Fin 4096) :
    (iblk m c 1 t : Vec Ideal S1x4096x1 .f32) (ix3 (0 : Fin 1) r (0 : Fin 1))
      = Cert.Attn.mk (m ((c.tc : Thread nD τ).loc main_arg1)) (row t) (pos t r) := by
  unfold iblk
  rw [View.read_apply]
  show (V m c main_v1 : S64x8192x1.Idx → EReal) _ = _
  rw [V_mask]
  refine (broadcastInDim_apply _ _ _ _ (ix2 (row t) (pos t r)) (fun a => ?_)).trans rfl
  match a with
  | ⟨0, _⟩ => show t.val / 2 = win0_1.index t 0 * 1 + 1 * 0; rw [(idx1 t).1]; omega
  | ⟨1, _⟩ => show 4096 * (t.val % 2) + r.val = win0_1.index t 1 * 4096 + 1 * r.val; rw [(idx1 t).2.1]; omega

/-- The bias block at `(0, u)` is the bias at `u`. -/
theorem bias_at (c : Dev nD) (t : Fin cfg0.N) (u : Fin 256) :
    (iblk m c 3 t : Vec Ideal S1x256 .f32) (ix2 (0 : Fin 1) u) = m ((c.tc : Thread nD τ).loc main_arg3) (ix1 u) := by
  unfold iblk
  rw [View.read_apply]
  show (V m c main_v2 : S1x256.Idx → EReal) _ = _
  rw [V_bias]
  refine Eq.trans (congrArg _ (funext fun a => Fin.ext ?_)) (shapeCast_a_1a_apply _ _ (0 : Fin 1) u)
  match a with
  | ⟨0, _⟩ => show win0_3.index t 0 * 1 + 1 * 0 = 0; rw [(idx3 t).1]
  | ⟨1, _⟩ => show win0_3.index t 1 * 256 + 1 * u.val = u.val; rw [(idx3 t).2]; omega

/-- The v block at `(0, u)` is v at `u`. -/
theorem v_at (c : Dev nD) (t : Fin cfg0.N) (u : Fin 256) :
    (iblk m c 4 t : Vec Ideal S1x256 .f32) (ix2 (0 : Fin 1) u) = m ((c.tc : Thread nD τ).loc main_arg4) (ix1 u) := by
  unfold iblk
  rw [View.read_apply]
  show (V m c main_v3 : S1x256.Idx → EReal) _ = _
  rw [V_v]
  refine Eq.trans (congrArg _ (funext fun a => Fin.ext ?_)) (shapeCast_a_1a_apply _ _ (0 : Fin 1) u)
  match a with
  | ⟨0, _⟩ => show win0_4.index t 0 * 1 + 1 * 0 = 0; rw [(idx4 t).1]
  | ⟨1, _⟩ => show win0_4.index t 1 * 256 + 1 * u.val = u.val; rw [(idx4 t).2]; omega

end Cert.KernelIdeal.Blocks

end
-- ==== Proof.KTile.lean ====
/-
  A tile's quantities in the coordinates of the whole arrays.

  Grid point t reads rows `pos t r = 4096 · (t % 2) + r` of batch row `row t = t / 2`. So the projected row and the
  unnormalised weight the body computes on the tile are the single-pass form's `proj` and `ex` of the argument
  arrays at (row t, pos t r): the mask column the kernel is handed is the mask as 0/1 numbers, the bias and
  scoring rows are the bias and scoring vectors with a leading unit axis.
-/
import proofs.«148173_j90563680403619_2_alg».proof.Proof.KInvariant
import proofs.«148173_j90563680403619_2_alg».proof.Proof.KBlocks
import proofs.«148173_j90563680403619_2_alg».proof.Proof.AttnSpec

set_option maxRecDepth 16384

noncomputable section

open Idealize.ShloMosaic Idealize.ShloMosaic.TcCoe Idealize.SL.Sem Idealize.ShloMosaic.ValueIdx

namespace Cert.KernelIdeal.Tile

open Cert.KernelIdeal Cert.KernelIdeal.Gen

variable (m : (ℓ : Loc nD τ sig) → Buf (Elt Ideal) ℓ)

/-- The tile's projected row is the projection of row `pos t r` of batch row `row t`. -/
theorem P_eq (c : Dev nD) (t : Fin cfg0.N) (r : Fin 4096) (u : Fin 256) :
    Inv.P m c t r u = Cert.Attn.proj (m ((c.tc : Thread nD τ).loc main_arg0)) (m ((c.tc : Thread nD τ).loc main_arg2)) (Blocks.row t) (Blocks.pos t r) u := by
  unfold Inv.P
  refine (Body.proj_at (iblk m c 0 t) (iblk m c 2 t) r u).trans ?_
  unfold Cert.Attn.proj
  exact Finset.sum_congr rfl fun d _ => congrArg₂ (· * ·) (Blocks.x_at m c t r d) (Blocks.w_at m c t d u)

/-- The tile's unnormalised weight is the single-pass form's at (row t, pos t r). -/
theorem E_eq (c : Dev nD) (t : Fin cfg0.N) (r : Fin 4096) :
    Inv.E m c t r = Cert.Attn.ex (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (Blocks.row t) (Blocks.pos t r) := by
  unfold Inv.E
  refine (Body.ex_at (iblk m c 0 t) (iblk m c 1 t) (iblk m c 2 t) (iblk m c 3 t) (iblk m c 4 t) r).trans ?_
  unfold Cert.Attn.ex Cert.Attn.score
  rw [Blocks.mask_at m c t r]
  refine congrArg (fun s : EReal => Ideal.exp (s * Cert.Attn.mk (m ((c.tc : Thread nD τ).loc main_arg1)) (Blocks.row t) (Blocks.pos t r)) * Cert.Attn.mk (m ((c.tc : Thread nD τ).loc main_arg1)) (Blocks.row t) (Blocks.pos t r)) ?_
  refine Finset.sum_congr rfl fun u _ => ?_
  rw [Blocks.v_at m c t u, Blocks.bias_at m c t u,
    show k0_pay6 (F := Ideal) (iblk m c 0 t) (iblk m c 2 t) (ix2 r u)
      = Cert.Attn.proj (m ((c.tc : Thread nD τ).loc main_arg0)) (m ((c.tc : Thread nD τ).loc main_arg2)) (Blocks.row t) (Blocks.pos t r) u from P_eq m c t r u]

end Cert.KernelIdeal.Tile

end
-- ==== Proof.KCover.lean ====
/-
  The output blocks tile the output arrays.

  The weights array [64, 8192, 1] is written back at every grid point t, through the block of rows
  4096 · (t % 2) … 4096 · (t % 2) + 4095 of batch row t / 2; the context array [64, 1, 256] is written back at the
  odd points only, through the one block of batch row t / 2. So index (b, p, 0) of the first array is covered by
  point 2 b + p / 4096, and index (b, 0, u) of the second by point 2 b + 1.
-/
import proofs.«148173_j90563680403619_2_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Cover

open Cert.KernelIdeal Cert.KernelIdeal.Gen

/-- Where the two output windows' blocks sit, decided once over the grid. -/
theorem idx5 : ∀ t : Fin cfg0.N, win0_5.index t (0 : Fin 3) = t.val / 2 ∧ win0_5.index t (1 : Fin 3) = t.val % 2 ∧ win0_5.index t (2 : Fin 3) = 0 :=
  (by decide +kernel : ∀ t : Fin grid0.N, win0_5.index t (0 : Fin 3) = t.val / 2 ∧ win0_5.index t (1 : Fin 3) = t.val % 2 ∧ win0_5.index t (2 : Fin 3) = 0)

theorem idx6 : ∀ t : Fin cfg0.N, win0_6.index t (0 : Fin 3) = t.val / 2 ∧ win0_6.index t (1 : Fin 3) = 0 ∧ win0_6.index t (2 : Fin 3) = 0 :=
  (by decide +kernel : ∀ t : Fin grid0.N, win0_6.index t (0 : Fin 3) = t.val / 2 ∧ win0_6.index t (1 : Fin 3) = 0 ∧ win0_6.index t (2 : Fin 3) = 0)

/-- An index of the weights array is in point `t`'s block iff each coordinate is in the block's range. -/
theorem mem_blk5 (t : Fin cfg0.N) (i : S64x8192x1.Idx) :
    i ∈ ((cfg0.win 5).blk t).view.set ↔ ∀ a : Fin 3, win0_5.index t a * S1x4096x1.size a ≤ (i a).val ∧ (i a).val < win0_5.index t a * S1x4096x1.size a + S1x4096x1.size a := by
  show i ∈ ((View.whole main_v4_0).slice (win0_5.rect t)).set ↔ _
  rw [View.set_slice_whole, Rect.mem_set_unit]
  exact Iff.rfl

/-- The same for the context array. -/
theorem mem_blk6 (t : Fin cfg0.N) (i : S64x1x256.Idx) :
    i ∈ ((cfg0.win 6).blk t).view.set ↔ ∀ a : Fin 3, win0_6.index t a * S1x1x256.size a ≤ (i a).val ∧ (i a).val < win0_6.index t a * S1x1x256.size a + S1x1x256.size a := by
  show i ∈ ((View.whole main_v4_1).slice (win0_6.rect t)).set ↔ _
  rw [View.set_slice_whole, Rect.mem_set_unit]
  exact Iff.rfl

/-- Every index of the weights array is in the block of a point that writes back. -/
theorem cover5 (i : S64x8192x1.Idx) : ∃ t : Fin cfg0.N, (cfg0.win 5).flush t = true ∧ i ∈ ((cfg0.win 5).blk t).view.set := by
  have hN : cfg0.N = 128 := N_0
  have h0 : (i 0).val < 64 := (i 0).isLt
  have h1 : (i 1).val < 8192 := (i 1).isLt
  have h2 : (i 2).val < 1 := (i 2).isLt
  let t : Fin cfg0.N := ⟨2 * (i 0).val + (i 1).val / 4096, by omega⟩
  have htv : t.val = 2 * (i 0).val + (i 1).val / 4096 := rfl
  obtain ⟨e0, e1, e2⟩ := idx5 t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 1 ≤ (i 2).val ∧ (i 2).val < win0_5.index t (2 : Fin 3) * 1 + 1; omega

/-- Every index of the context array is in the block of an odd point, and the odd points write back. -/
theorem cover6 (i : S64x1x256.Idx) : ∃ t : Fin cfg0.N, (cfg0.win 6).flush t = true ∧ i ∈ ((cfg0.win 6).blk t).view.set := by
  have hN : cfg0.N = 128 := N_0
  have h0 : (i 0).val < 64 := (i 0).isLt
  have h1 : (i 1).val < 1 := (i 1).isLt
  have h2 : (i 2).val < 256 := (i 2).isLt
  let t : Fin cfg0.N := ⟨2 * (i 0).val + 1, by omega⟩
  have htv : t.val = 2 * (i 0).val + 1 := rfl
  obtain ⟨e0, e1, e2⟩ := idx6 t
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 256 ≤ (i 2).val ∧ (i 2).val < win0_6.index t (2 : Fin 3) * 256 + 256; omega

end Cert.KernelIdeal.Cover

end
-- ==== Proof.LibTwoTiles.lean ====
/-
  A sum over `2 * n` consecutive positions taken as two tiles of `n`: the first tile's sum plus the second's,
  in any additive commutative monoid.
-/
import Mathlib.Algebra.BigOperators.Fin

namespace Cert.LibTwoTiles

/-- `∑ t : Fin (n + n), f t = ∑ r : Fin n, f r + ∑ r : Fin n, f (n + r)`. -/
theorem sum_two_tiles {M : Type*} [AddCommMonoid M] (n : ℕ) (f : Fin (n + n) → M) :
    ∑ t : Fin (n + n), f t
      = (∑ r : Fin n, f ⟨r.val, by have := r.isLt; omega⟩) + ∑ r : Fin n, f ⟨n + r.val, by have := r.isLt; omega⟩ := by
  rw [Fin.sum_univ_add]
  rfl

/-- The same at the literal sizes 8192 = 4096 + 4096. -/
theorem sum_8192 {M : Type*} [AddCommMonoid M] (f : Fin 8192 → M) :
    ∑ t : Fin 8192, f t
      = (∑ r : Fin 4096, f ⟨r.val, by have := r.isLt; omega⟩) + ∑ r : Fin 4096, f ⟨4096 + r.val, by have := r.isLt; omega⟩ :=
  sum_two_tiles 4096 f

end Cert.LibTwoTiles
-- ==== Proof.KFinal.lean ====
/-
  The two output arrays after the run, as whole-array functions of the argument arrays.

  What grid point t writes back through the weights window is its tile of the single-pass form's unnormalised
  weights `ex`; what an odd point writes back through the context window is the row `ctx (t / 2) ·` — the two
  tiles' partial sums, taken together, are the sums over the whole sequence. Since the written-back blocks tile both
  arrays, the arrays end holding `ex` and `ctx` everywhere.
-/
import proofs.«148173_j90563680403619_2_alg».proof.Proof.KTile
import proofs.«148173_j90563680403619_2_alg».proof.Proof.KCover
import proofs.«148173_j90563680403619_2_alg».proof.Proof.LibTwoTiles

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ)

/-- The unnormalised weights, as the [64, 8192, 1] array the kernel writes. -/
def exArr (c : Dev nD) : S64x8192x1.Idx → EReal := fun i => Cert.Attn.ex (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1)

/-- The context vectors, as the [64, 1, 256] array the kernel writes. -/
def ctxArr (c : Dev nD) : S64x1x256.Idx → EReal := fun i => Cert.Attn.ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 2)

/-- What point `t` writes back through the weights window is block `t` of `exArr`. -/
theorem flushed5_eq (c : Dev nD) (t : Fin cfg0.N) :
    (dats m 0 c).flushed 5 t = ((cfg0.win 5).blk t).view.read (Elt Ideal) (exArr m c) := by
  show (cfg0.win 5).cut (grid0.coords t) ((dats m 0 c).after 5 t) = _
  rw [after0_5]
  have hw : (outsAt0 m c t.val t.isLt).1 = k0_pay8 (F := Ideal) (iblk m c 0 t) (iblk m c 1 t) (iblk m c 2 t) (iblk m c 3 t) (iblk m c 4 t) := by
    by_cases h1 : t.val % 2 = 1
    · exact Inv.odd_weights m c t (by omega) h1
    · exact Inv.even_weights m c t (by omega) h1
  rw [hw]
  funext y
  show k0_pay8 (F := Ideal) (iblk m c 0 t) (iblk m c 1 t) (iblk m c 2 t) (iblk m c 3 t) (iblk m c 4 t) y = exArr m c (((cfg0.win 5).blk t).view.emb y)
  have hy0 : (y 0).val < 1 := (y 0).isLt
  have hy1 : (y 1).val < 4096 := (y 1).isLt
  have hy2 : (y 2).val < 1 := (y 2).isLt
  obtain ⟨e0, e1, e2⟩ := Cover.idx5 t
  have hemb : ((cfg0.win 5).blk t).view.emb y = ix3 (Blocks.row t) (Blocks.pos t ⟨(y 1).val, hy1⟩) (0 : Fin 1) := by
    funext a; apply Fin.ext
    match a with
    | ⟨0, _⟩ => show win0_5.index t (0 : Fin 3) * 1 + 1 * (y 0).val = t.val / 2; omega
    | ⟨1, _⟩ => show win0_5.index t (1 : Fin 3) * 4096 + 1 * (y 1).val = 4096 * (t.val % 2) + (y 1).val; omega
    | ⟨2, _⟩ => show win0_5.index t (2 : Fin 3) * 1 + 1 * (y 2).val = 0; omega
  have hy : (y : S1x4096x1.Idx) = ix3 (0 : Fin 1) (⟨(y 1).val, hy1⟩ : Fin 4096) (0 : Fin 1) := by
    funext a; apply Fin.ext
    match a with
    | ⟨0, _⟩ => show (y 0).val = 0; omega
    | ⟨1, _⟩ => rfl
    | ⟨2, _⟩ => show (y 2).val = 0; omega
  rw [hemb]
  refine (congrArg (k0_pay8 (F := Ideal) (iblk m c 0 t) (iblk m c 1 t) (iblk m c 2 t) (iblk m c 3 t) (iblk m c 4 t)) hy).trans ?_
  refine (Body.column_at (iblk m c 0 t) (iblk m c 1 t) (iblk m c 2 t) (iblk m c 3 t) (iblk m c 4 t) (0 : Fin 1) ⟨(y 1).val, hy1⟩ (0 : Fin 1)).trans ?_
  exact Tile.E_eq m c t ⟨(y 1).val, hy1⟩

/-- Where an odd point and the point before it sit in the sequence. -/
theorem row_prev (t : Fin cfg0.N) (h1 : t.val % 2 = 1) : Blocks.row (Inv.prev t) = Blocks.row t :=
  Fin.ext (by show (t.val - 1) / 2 = t.val / 2; omega)
theorem pos_prev (t : Fin cfg0.N) (h1 : t.val % 2 = 1) (r : Fin 4096) :
    Blocks.pos (Inv.prev t) r = ⟨r.val, by have := r.isLt; omega⟩ :=
  Fin.ext (by show 4096 * ((t.val - 1) % 2) + r.val = r.val; omega)
theorem pos_odd (t : Fin cfg0.N) (h1 : t.val % 2 = 1) (r : Fin 4096) :
    Blocks.pos t r = ⟨4096 + r.val, by have := r.isLt; omega⟩ :=
  Fin.ext (by show 4096 * (t.val % 2) + r.val = 4096 + r.val; omega)

/-- After an odd point the context block holds the context vector of its batch row. -/
theorem odd_ctx_eq (c : Dev nD) (t : Fin cfg0.N) (h0 : ¬t.val % 2 = 0) (h1 : t.val % 2 = 1) (u : Fin 256) :
    (outsAt0 m c t.val t.isLt).2.1 (ix3 (0 : Fin 1) (0 : Fin 1) u) = Cert.Attn.ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (Blocks.row t) u := by
  refine (Inv.odd_ctx m c t h0 h1 u).trans ?_
  unfold Cert.Attn.ctx Cert.Attn.total
  rw [Cert.LibTwoTiles.sum_8192 (fun t' => Cert.Attn.ex (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (Blocks.row t) t' * Cert.Attn.proj (m ((c.tc : Thread nD τ).loc main_arg0)) (m ((c.tc : Thread nD τ).loc main_arg2)) (Blocks.row t) t' u),
    Cert.LibTwoTiles.sum_8192 (fun t' => Cert.Attn.ex (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (Blocks.row t) t')]
  have hE0 : ∀ r : Fin 4096, Inv.E m c (Inv.prev t) r = Cert.Attn.ex (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (Blocks.row t) ⟨r.val, by have := r.isLt; omega⟩ := fun r => by
    rw [Tile.E_eq, row_prev t h1, pos_prev t h1]
  have hE1 : ∀ r : Fin 4096, Inv.E m c t r = Cert.Attn.ex (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (Blocks.row t) ⟨4096 + r.val, by have := r.isLt; omega⟩ := fun r => by
    rw [Tile.E_eq, pos_odd t h1]
  have hP0 : ∀ r : Fin 4096, Inv.P m c (Inv.prev t) r u = Cert.Attn.proj (m ((c.tc : Thread nD τ).loc main_arg0)) (m ((c.tc : Thread nD τ).loc main_arg2)) (Blocks.row t) ⟨r.val, by have := r.isLt; omega⟩ u := fun r => by
    rw [Tile.P_eq, row_prev t h1, pos_prev t h1]
  have hP1 : ∀ r : Fin 4096, Inv.P m c t r u = Cert.Attn.proj (m ((c.tc : Thread nD τ).loc main_arg0)) (m ((c.tc : Thread nD τ).loc main_arg2)) (Blocks.row t) ⟨4096 + r.val, by have := r.isLt; omega⟩ u := fun r => by
    rw [Tile.P_eq, pos_odd t h1]
  refine congrArg₂ Ideal.div (congrArg₂ (· + ·) ?_ ?_) (congrArg₂ (· + ·) ?_ ?_)
  · exact Finset.sum_congr rfl fun r _ => by rw [hE0 r, hP0 r]
  · exact Finset.sum_congr rfl fun r _ => by rw [hE1 r, hP1 r]
  · exact Finset.sum_congr rfl fun r _ => hE0 r
  · exact Finset.sum_congr rfl fun r _ => hE1 r

/-- What an odd point writes back through the context window is its block of `ctxArr`. -/
theorem flushed6_eq (c : Dev nD) (t : Fin cfg0.N) (hf : (cfg0.win 6).flush t = true) :
    (dats m 0 c).flushed 6 t = ((cfg0.win 6).blk t).view.read (Elt Ideal) (ctxArr m c) := by
  have h1 : t.val % 2 = 1 := (flush0_6 t).mp hf
  have h0 : ¬t.val % 2 = 0 := by omega
  show (cfg0.win 6).cut (grid0.coords t) ((dats m 0 c).after 6 t) = _
  rw [after0_6]
  funext y
  show (outsAt0 m c t.val t.isLt).2.1 y = ctxArr m c (((cfg0.win 6).blk t).view.emb y)
  have hy0 : (y 0).val < 1 := (y 0).isLt
  have hy1 : (y 1).val < 1 := (y 1).isLt
  have hy2 : (y 2).val < 256 := (y 2).isLt
  obtain ⟨e0, e1, e2⟩ := Cover.idx6 t
  have hemb : ((cfg0.win 6).blk t).view.emb y = ix3 (Blocks.row t) (0 : Fin 1) (⟨(y 2).val, hy2⟩ : Fin 256) := by
    funext a; apply Fin.ext
    match a with
    | ⟨0, _⟩ => show win0_6.index t (0 : Fin 3) * 1 + 1 * (y 0).val = t.val / 2; omega
    | ⟨1, _⟩ => show win0_6.index t (1 : Fin 3) * 1 + 1 * (y 1).val = 0; omega
    | ⟨2, _⟩ => show win0_6.index t (2 : Fin 3) * 256 + 1 * (y 2).val = (y 2).val; omega
  have hy : (y : S1x1x256.Idx) = ix3 (0 : Fin 1) (0 : Fin 1) (⟨(y 2).val, hy2⟩ : Fin 256) := by
    funext a; apply Fin.ext
    match a with
    | ⟨0, _⟩ => show (y 0).val = 0; omega
    | ⟨1, _⟩ => show (y 1).val = 0; omega
    | ⟨2, _⟩ => rfl
  rw [hemb]
  refine (congrArg ((outsAt0 m c t.val t.isLt).2.1) hy).trans ?_
  exact odd_ctx_eq m c t h0 h1 ⟨(y 2).val, hy2⟩

/-- The weights array after the run. -/
theorem final5 (c : Dev nD) : (dats m 0 c).arrAt 5 cfg0.N = exArr m c :=
  (dats m 0 c).arrAt_eq_of_cover 5 (exArr m c) (fun t _ => flushed5_eq m c t) Cover.cover5

/-- The context array after the run. -/
theorem final6 (c : Dev nD) : (dats m 0 c).arrAt 6 cfg0.N = ctxArr m c :=
  (dats m 0 c).arrAt_eq_of_cover 6 (ctxArr m c) (fun t hf => flushed6_eq m c t hf) Cover.cover6

end Cert.KernelIdeal.Final

end
-- ==== Proof.KTail.lean ====
/-
  The kernel program's host operations after the region, read at an index on the extended reals.

  After the region two arrays are in place: one of shape `[64, 8192, 1]`, the unnormalised weights, and one of shape
  `[64, 1, 256]`, the context vectors. Seven operations follow. The first array loses its unit axis, is summed over
  the positions from the constant zero, the row sums are broadcast back over the positions and the array is divided
  by them: at `(b, t)` the result is the entry `(b, t, 0)` over the sum of the entries `(b, t', 0)`. The second array
  loses its unit axis: at `(b, u)` the result is the entry `(b, 0, u)`. Both hold from any contents of the buffers, so
  in particular from what the region leaves.

  A cast that drops a unit axis keeps the row-major position, `i * b + j` on both sides; a broadcast reads its operand
  with the new axis dropped; the sum's initial value is zero and `zero_add` removes it.
-/
import proofs.«148173_j90563680403619_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Tail

open Cert.KernelIdeal Cert.KernelIdeal.Gen Idealize.ShloMosaic Idealize.ShloMosaic.TcCoe Idealize.SL.Sem
  Idealize.ShloMosaic.ValueIdx

variable {α : Type}

/-! ## Two casts that drop a unit axis -/

/-- An `[a, b, 1]` array cast to `[a, b]` reads, at `(i, j)`, the operand at `(i, j, 0)`: both have row-major position
    `i * b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1, b]` array cast to `[a, b]` reads, at `(i, j)`, the operand at `(i, 0, j)`: both have row-major position
    `i * b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-! ## The row sum broadcast back, and the quotient -/

/-- A column broadcast along the positions reads the column's entry of its row. -/
theorem bcast_col_at (y : S64x1.Idx → α) (b : Fin 64) (t : Fin 8192) :
    broadcastInDim S64x8192 ![0, 1] bcast_S64x1_S64x8192_0_1 y (ix2 b t) = y (ix2 b (0 : Fin 1)) :=
  broadcastInDim_apply _ bcast_S64x1_S64x8192_0_1 y _ _ (fun a => match a with
    | ⟨0, _⟩ => by show b.val = if (64 : Nat) = 1 then 0 else b.val; rw [if_neg (by decide)]
    | ⟨1, _⟩ => by show 0 = if (1 : Nat) = 1 then 0 else t.val; rw [if_pos rfl])

/-- A vector made a column reads the vector's entry of its row. -/
theorem bcast_keep_at (z : S64.Idx → α) (b : Fin 64) (o : Fin 1) :
    broadcastInDim S64x1 ![0] bcast_S64_S64x1_0 z (ix2 b o) = z (ix1 b) :=
  broadcastInDim_apply _ bcast_S64_S64x1_0 z _ _ (fun a => match a with
    | ⟨0, _⟩ => by show b.val = if (64 : Nat) = 1 then 0 else b.val; rw [if_neg (by decide)])

/-- The sum over the positions, started from the constant zero, at the row `b`. -/
theorem rowsum_at (R : FVec Ideal S64x8192 .f32) (b : Fin 64) :
    Host.reduceAdd (F := Ideal) R (constant (F := Ideal) S_ .f32 0x00000000#32) reducesTo_S64x8192_S64_d1 h_S_ (ix1 b)
      = ∑ t' : Fin 8192, R (ix2 b t') := by
  simp only [Host.reduceAdd, Ideal.hostReduceAdd_def]
  rw [Ideal.hostReduceAdd_single reducesTo_S64x8192_S64_d1 (by decide)]
  refine (congrArg (· + _) (Ideal.ofBits_zero_f32 : constant (F := Ideal) S_ .f32 0x00000000#32 (Shape.Idx.first h_S_) = 0)).trans ?_
  rw [zero_add]
  refine Finset.sum_congr rfl fun k _ => ?_
  exact congrArg R (funext fun a => Fin.ext (by match a with | ⟨0, _⟩ => rfl | ⟨1, _⟩ => rfl))

/-- An array over rows and positions divided by its row sums broadcast back: at `(b, t)` the entry over the sum of
    the row's entries. -/
theorem quot_at (R : FVec Ideal S64x8192 .f32) (b : Fin 64) (t : Fin 8192) :
    Host.divf (F := Ideal) R
        (broadcastInDim S64x8192 ![0, 1] bcast_S64x1_S64x8192_0_1
          (broadcastInDim S64x1 ![0] bcast_S64_S64x1_0
            (Host.reduceAdd (F := Ideal) R (constant (F := Ideal) S_ .f32 0x00000000#32) reducesTo_S64x8192_S64_d1 h_S_)))
        (ix2 b t)
      = Ideal.div (R (ix2 b t)) (∑ t' : Fin 8192, R (ix2 b t')) := by
  show FloatOps.hostDivf (R (ix2 b t)) _ = _
  rw [Ideal.hostDivf_def, bcast_col_at, bcast_keep_at, rowsum_at]

/-! ## The two results -/

variable (Vw : Valuation τ sig (Elt Ideal))

/-- The first result at `(b, u)` is the region's `[64, 1, 256]` array at `(b, 0, u)`. -/
theorem ctx_tail_at (b : Fin 64) (u : Fin 256) :
    (StableHlo.after (hostOps1 (F := Ideal)) Vw (Proc.devRef .tc main_v10) : S64x256.Idx → EReal) (ix2 b u)
      = (Vw (Proc.devRef .tc main_v4_1) : S64x1x256.Idx → EReal) (ix3 b (0 : Fin 1) u) := by
  have h : StableHlo.after (hostOps1 (F := Ideal)) Vw (Proc.devRef .tc main_v10)
      = shapeCast S64x256 (Vw (Proc.devRef .tc main_v4_1) : S64x1x256.Idx → EReal) shapeCasts_S64x1x256_S64x256 := by
    after_results
    rfl
  rw [h]
  exact shapeCast_a1b_ab_apply _ _ b u

/-- The second result at `(b, t)` is the region's `[64, 8192, 1]` array at `(b, t, 0)` over the sum of its entries
    `(b, t', 0)`. -/
theorem weights_tail_at (b : Fin 64) (t : Fin 8192) :
    (StableHlo.after (hostOps1 (F := Ideal)) Vw (Proc.devRef .tc main_v9) : S64x8192.Idx → EReal) (ix2 b t)
      = Ideal.div ((Vw (Proc.devRef .tc main_v4_0) : S64x8192x1.Idx → EReal) (ix3 b t (0 : Fin 1)))
          (∑ t' : Fin 8192, (Vw (Proc.devRef .tc main_v4_0) : S64x8192x1.Idx → EReal) (ix3 b t' (0 : Fin 1))) := by
  have h : StableHlo.after (hostOps1 (F := Ideal)) Vw (Proc.devRef .tc main_v9)
      = (fun R : FVec Ideal S64x8192 .f32 => Host.divf (F := Ideal) R
          (broadcastInDim S64x8192 ![0, 1] bcast_S64x1_S64x8192_0_1
            (broadcastInDim S64x1 ![0] bcast_S64_S64x1_0
              (Host.reduceAdd (F := Ideal) R (constant (F := Ideal) S_ .f32 0x00000000#32) reducesTo_S64x8192_S64_d1 h_S_))))
        (shapeCast S64x8192 (Vw (Proc.devRef .tc main_v4_0) : S64x8192x1.Idx → EReal) shapeCasts_S64x8192x1_S64x8192) := by
    after_results
    rfl
  rw [h]
  refine (quot_at _ b t).trans ?_
  rw [shapeCast_ab1_ab_apply]
  refine congrArg (Ideal.div _) (Finset.sum_congr rfl fun k _ => ?_)
  exact shapeCast_ab1_ab_apply _ _ b k

/-- The first result is the region's `[64, 1, 256]` array with its unit axis dropped. -/
theorem ctx_tail :
    (StableHlo.after (hostOps1 (F := Ideal)) Vw (Proc.devRef .tc main_v10) : S64x256.Idx → EReal)
      = fun i => (Vw (Proc.devRef .tc main_v4_1) : S64x1x256.Idx → EReal) (ix3 (i 0) (0 : Fin 1) (i 1)) := by
  funext i
  exact (congrArg (StableHlo.after (hostOps1 (F := Ideal)) Vw (Proc.devRef .tc main_v10) : S64x256.Idx → EReal) (eq_ix2 i)).trans
    (ctx_tail_at Vw (i 0) (i 1))

/-- The second result is the region's `[64, 8192, 1]` array, its unit axis dropped, divided by its row sums. -/
theorem weights_tail :
    (StableHlo.after (hostOps1 (F := Ideal)) Vw (Proc.devRef .tc main_v9) : S64x8192.Idx → EReal)
      = fun i => Ideal.div ((Vw (Proc.devRef .tc main_v4_0) : S64x8192x1.Idx → EReal) (ix3 (i 0) (i 1) (0 : Fin 1)))
          (∑ t' : Fin 8192, (Vw (Proc.devRef .tc main_v4_0) : S64x8192x1.Idx → EReal) (ix3 (i 0) t' (0 : Fin 1))) := by
  funext i
  exact (congrArg (StableHlo.after (hostOps1 (F := Ideal)) Vw (Proc.devRef .tc main_v9) : S64x8192.Idx → EReal) (eq_ix2 i)).trans
    (weights_tail_at Vw (i 0) (i 1))

end Cert.KernelIdeal.Tail

end
-- ==== Proof.KRun.lean ====
/-
  The kernel's run, read: after every weakly fair execution the first result holds the context vectors and the
  second the normalised weights of the single-pass form, as functions of the argument arrays; the arguments
  end unchanged.

  The region leaves the unnormalised weights `ex` in its first output array and the context vectors `ctx` in its
  second. The host lines after the region drop the unit axes, sum `ex` over the sequence and divide: the second
  result is `ex b t / ∑ t', ex b t' = weights b t`; the first is `ctx b u` as it stands.
-/
import proofs.«148173_j90563680403619_2_alg».proof.Proof.Gen.KernelIdeal.Frame
import proofs.«148173_j90563680403619_2_alg».proof.Proof.AttnSpec
import proofs.«148173_j90563680403619_2_alg».proof.Proof.KFinal
import proofs.«148173_j90563680403619_2_alg».proof.Proof.KTail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.AttnValue

open Cert.KernelIdeal Cert.KernelIdeal.Gen

/-- The region's two output arrays, as the host lines after it find them. -/
theorem arr5 (m : (ℓ : Loc nD τ sig) → Buf (Elt Ideal) ℓ) (c : Dev nD) :
    (Pipeline.withArrays spec0 c (V0 m c) (fun w => (dats m 0 c).arrAt w cfg0.N) (Proc.devRef .tc main_v4_0) : S64x8192x1.Idx → EReal)
      = Final.exArr m c :=
  (Pipeline.withArrays_arr spec0 launch0.win.arr_inj c (V0 m c) (fun w => (dats m 0 c).arrAt w cfg0.N) 5).trans (Final.final5 m c)

theorem arr6 (m : (ℓ : Loc nD τ sig) → Buf (Elt Ideal) ℓ) (c : Dev nD) :
    (Pipeline.withArrays spec0 c (V0 m c) (fun w => (dats m 0 c).arrAt w cfg0.N) (Proc.devRef .tc main_v4_1) : S64x1x256.Idx → EReal)
      = Final.ctxArr m c :=
  (Pipeline.withArrays_arr spec0 launch0.win.arr_inj c (V0 m c) (fun w => (dats m 0 c).arrAt w cfg0.N) 6).trans (Final.final6 m c)

/-- The first result after the host tail: the context vectors. -/
theorem tail_ctx (m : (ℓ : Loc nD τ sig) → Buf (Elt Ideal) ℓ) (c : Dev nD) :
    Pipeline.afterTail₀ cfgs (dats m) 0 (V0 m) [hostOps1] c main_v10
      = (fun i => Cert.Attn.ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1)) := by
  unfold Pipeline.afterTail₀
  show StableHlo.after hostOps1 (Pipeline.withArrays spec0 c (V0 m c) fun w => (dats m 0 c).arrAt w cfg0.N) (Proc.devRef .tc main_v10) = _
  rw [Tail.ctx_tail, arr6]
  rfl

/-- The second result after the host tail: the normalised weights. -/
theorem tail_weights (m : (ℓ : Loc nD τ sig) → Buf (Elt Ideal) ℓ) (c : Dev nD) :
    Pipeline.afterTail₀ cfgs (dats m) 0 (V0 m) [hostOps1] c main_v9
      = (fun i => Cert.Attn.weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1)) := by
  unfold Pipeline.afterTail₀
  show StableHlo.after hostOps1 (Pipeline.withArrays spec0 c (V0 m c) fun w => (dats m 0 c).arrAt w cfg0.N) (Proc.devRef .tc main_v9) = _
  rw [Tail.weights_tail, arr5]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = (fun i => Cert.Attn.ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v9) = (fun i => Cert.Attn.weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v10 (Pipeline.mem_restRefs_of main_v10 (by decide) (by decide))).trans (tail_ctx m c),
      ((h c).2 main_v9 (Pipeline.mem_restRefs_of main_v9 (by decide) (by decide))).trans (tail_weights m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.AttnValue

end
-- ==== Proof.AttnClaims.lean ====
/-
  The claims of the masked additive-attention layer, assembled.

  Each of the three programs runs and leaves its argument arrays unchanged.  The kernel's two results are the
  context vectors and the normalised weights of the single-pass form, as functions of the argument arrays; the
  reference's two results are those of the two-pass form.  The precondition makes every float entry a real number
  and gives every mask row an unmasked position; under it the two forms are one function, index by index, and
  that is the algebraic claim.
-/
import proofs.«148173_j90563680403619_2_alg».proof.Defs
import proofs.«148173_j90563680403619_2_alg».proof.Proof.Gen.Kernel.Frame
import proofs.«148173_j90563680403619_2_alg».proof.Proof.Gen.KernelIdeal.Frame
import proofs.«148173_j90563680403619_2_alg».proof.Proof.Gen.ReferenceIdeal.Read
import proofs.«148173_j90563680403619_2_alg».proof.Proof.Gen.Pre_finite_inputs
import proofs.«148173_j90563680403619_2_alg».proof.Proof.AttnRef
import proofs.«148173_j90563680403619_2_alg».proof.Proof.AttnLaw
import proofs.«148173_j90563680403619_2_alg».proof.Proof.AttnPre
import proofs.«148173_j90563680403619_2_alg».proof.Proof.KRun

noncomputable section

open Idealize.ShloMosaic Idealize.ShloMosaic.TcCoe Idealize.SL.Sem

namespace Cert.Proof.AttnClaims

/-! ## Under the precondition the reference's results are the single-pass form -/

section Results

open Cert.ReferenceIdeal Cert.ReferenceIdeal.Gen Cert.ReferenceIdeal.Read

variable (x0 : (⟨S64x8192x256, .f32⟩ : BufTy).Contents (Elt Ideal)) (x1 : (⟨S64x8192, .i1⟩ : BufTy).Contents (Elt Ideal))
  (x2 : (⟨S256x256, .f32⟩ : BufTy).Contents (Elt Ideal)) (x3 x4 : (⟨S256, .f32⟩ : BufTy).Contents (Elt Ideal))

/-- The reference's first result is the two-pass context vector; with finite arrays and an unmasked position in
    every mask row that is the single-pass context vector. -/
theorem ref_ctx (hpre : Cert.Pre_finite_inputs.fn (F := Ideal) x0 x1 x2 x3 x4 = (fun _ => 1#1)) :
    val_main_v27 (F := Ideal) x0 x1 x2 x3 x4 = fun i => Cert.Attn.ctx x0 x1 x2 x3 x4 (i 0) (i 1) := by
  obtain ⟨h0, h2, h3, h4, hrow⟩ := Cert.Attn.Pre.decode x0 x1 x2 x3 x4 hpre
  rw [Cert.Attn.Ref.ctx_eq]
  funext i
  exact Cert.Attn.ctxM_eq x0 x1 x2 x3 x4 h0 h2 h3 h4 (i 0) (hrow (i 0)) (i 1)

/-- The reference's second result is the two-pass weights, which are the single-pass weights for every input. -/
theorem ref_weights :
    val_main_v21 (F := Ideal) x0 x1 x2 x3 x4 = fun i => Cert.Attn.weights x0 x1 x2 x3 x4 (i 0) (i 1) := by
  rw [Cert.Attn.Ref.weights_eq]
  funext i
  exact Cert.Attn.weightsM_eq x0 x1 x2 x3 x4 (i 0) (i 1)

end Results

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- At the ideal instance the kernel ends with the single-pass context vectors and weights of its argument arrays
    and the reference with the two-pass ones of arrays that agree with them; under the precondition these are equal. -/
theorem algebraic : Cert.algebraic_KernelIdeal_ReferenceIdeal := by
  intro m ρ m' ρ' hpre hagree
  refine ⟨_, _, Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v27_eq _ _ _ _ _).trans ?_
    rw [(hagree c).1, (hagree c).2.1, (hagree c).2.2.1, (hagree c).2.2.2.1, (hagree c).2.2.2.2]
    exact ref_ctx _ _ _ _ _ (hpre c)
  · refine (Cert.ReferenceIdeal.Read.val_main_v21_eq _ _ _ _ _).trans ?_
    rw [(hagree c).1, (hagree c).2.1, (hagree c).2.2.1, (hagree c).2.2.2.1, (hagree c).2.2.2.2]
    exact ref_weights _ _ _ _ _

end Cert.Proof.AttnClaims

end
-- ==== Proof.lean ====
/- Masked additive attention: for finite inputs whose mask rows each have an unmasked position, the kernel's
   single-pass context vectors and normalised weights equal the reference's two-pass ones, index by index on the
   extended reals, and each of the three programs leaves its argument arrays unchanged.  The five claims are proved in
   Proof/AttnClaims.lean; here they are gathered behind the witnesses of the programs' stated facts. -/
import proofs.«148173_j90563680403619_2_alg».proof.Defs
import proofs.«148173_j90563680403619_2_alg».proof.Proof.AttnClaims
import proofs.«148173_j90563680403619_2_alg».proof.Proof.Gen.Kernel
import proofs.«148173_j90563680403619_2_alg».proof.Proof.Gen.Kernel.Skeleton
import proofs.«148173_j90563680403619_2_alg».proof.Proof.Gen.Kernel.Launch
import proofs.«148173_j90563680403619_2_alg».proof.Proof.Gen.Kernel.Points
import proofs.«148173_j90563680403619_2_alg».proof.Proof.Gen.Kernel.Frame
import proofs.«148173_j90563680403619_2_alg».proof.Proof.Gen.KernelIdeal
import proofs.«148173_j90563680403619_2_alg».proof.Proof.Gen.KernelIdeal.Skeleton
import proofs.«148173_j90563680403619_2_alg».proof.Proof.Gen.KernelIdeal.Launch
import proofs.«148173_j90563680403619_2_alg».proof.Proof.Gen.KernelIdeal.Points
import proofs.«148173_j90563680403619_2_alg».proof.Proof.Gen.KernelIdeal.Frame
import proofs.«148173_j90563680403619_2_alg».proof.Proof.Gen.ReferenceIdeal
import proofs.«148173_j90563680403619_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    AttnClaims.frame_p, AttnClaims.frame_pi, AttnClaims.frame_ri, trivial, AttnClaims.algebraic⟩

end Cert.Proof

end
